-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S1x64 : Shape := ⟨2, ![1, 64]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S1x64 .f32) (main_arg9 : FVec F S1 .f32) (main_v33 : IVec S_ 1) : IVec S_ 1 :=
  let main_v34 : FVec F S1x64 .f32 := Host.absf main_arg8
  let main_cst_12 : FVec F S_ .f32 := constant S_ .f32 0x7F800000#32
  let main_v35 : FVec F S1x64 .f32 := broadcastInDim S1x64 ![] bcast_S_S1x64 main_cst_12
  let main_v36 : IVec S1x64 1 := cmpf .olt main_v34 main_v35
  let main_c_13 : IVec S_ 1 := constantI S_ 1 1#1
  let main_v37 : IVec S_ 1 := (fun x v => Host.reduce IntOp.andi x v reducesTo_S1x64_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S64x64 .f32) (main_arg6 : FVec F S64 .f32) (main_arg7 : FVec F S64x64 .f32) (main_arg8 : FVec F S1x64 .f32) (main_arg9 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_v33

def fn {F : FTy → Type} [FloatOps F] (main_arg0 : FVec F S100000x64 .f32) (main_arg1 : IVec S2x1000000 32) (main_arg2 : FVec F S64x64 .f32) (main_arg3 : FVec F S64 .f32) (main_arg4 : FVec F S64x64 .f32) (main_arg5 : FVec F S64x64 .f32) (main_arg6 : FVec F S64 .f32) (main_arg7 : FVec F S64x64 .f32) (main_arg8 : FVec F S1x64 .f32) (main_arg9 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_v13 main_v16
-- ==== Kernel.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S1x64 : Shape := ⟨2, ![1, 64]⟩
abbrev S1 : Shape := ⟨1, ![1]⟩
abbrev S1x1000000 : Shape := ⟨2, ![1, 1000000]⟩
abbrev S1000000 : Shape := ⟨1, ![1000000]⟩
abbrev S_ : Shape := ⟨0, ![]⟩
abbrev S100000 : Shape := ⟨1, ![100000]⟩
abbrev S1000000x1 : Shape := ⟨2, ![1000000, 1]⟩
abbrev S100000x1 : Shape := ⟨2, ![100000, 1]⟩
abbrev S1000000x64 : Shape := ⟨2, ![1000000, 64]⟩
abbrev S10000x64 : Shape := ⟨2, ![10000, 64]⟩
abbrev S64x1 : Shape := ⟨2, ![64, 1]⟩
abbrev S1x1 : Shape := ⟨2, ![1, 1]⟩
abbrev S10000x1 : Shape := ⟨2, ![10000, 1]⟩

abbrev nBuf : Space → Nat
  | .hbm => 67
  | .vmem => 20
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S1x64, .f32⟩
  | .hbm, ⟨9, _⟩ => ⟨S1, .f32⟩
  | .hbm, ⟨10, _⟩ => ⟨S1x1000000, .i32⟩
  | .hbm, ⟨11, _⟩ => ⟨S1000000, .i32⟩
  | .hbm, ⟨12, _⟩ => ⟨S1x1000000, .i32⟩
  | .hbm, ⟨13, _⟩ => ⟨S1000000, .i32⟩
  | .hbm, ⟨14, _⟩ => ⟨S_, .f32⟩
  | .hbm, ⟨15, _⟩ => ⟨S1000000, .f32⟩
  | .hbm, ⟨16, _⟩ => ⟨S_, .f32⟩
  | .hbm, ⟨17, _⟩ => ⟨S100000, .f32⟩
  | .hbm, ⟨18, _⟩ => ⟨S1000000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S_, .i32⟩
  | .hbm, ⟨28, _⟩ => ⟨S1000000, .i32⟩
  | .hbm, ⟨29, _⟩ => ⟨S1000000, .i1⟩
  | .hbm, ⟨30, _⟩ => ⟨S_, .i32⟩
  | .hbm, ⟨31, _⟩ => ⟨S1000000, .i32⟩
  | .hbm, ⟨32, _⟩ => ⟨S1000000, .i32⟩
  | .hbm, ⟨33, _⟩ => ⟨S1000000, .i32⟩
  | .hbm, ⟨34, _⟩ => ⟨S1000000x1, .i32⟩
  | .hbm, ⟨35, _⟩ => ⟨S1000000x64, .f32⟩
  | .hbm, ⟨36, _⟩ => ⟨S_, .f32⟩
  | .hbm, ⟨37, _⟩ => ⟨S100000x64, .f32⟩
  | .hbm, ⟨38, _⟩ => ⟨S1000000x1, .i32⟩
  | .hbm, ⟨39, _⟩ => ⟨S100000x64, .f32⟩
  | .hbm, ⟨40, _⟩ => ⟨S100000x64, .f32⟩
  | .hbm, ⟨41, _⟩ => ⟨S100000x64, .f32⟩
  | .hbm, ⟨42, _⟩ => ⟨S64x64, .f32⟩
  | .hbm, ⟨43, _⟩ => ⟨S64x64, .f32⟩
  | .hbm, ⟨44, _⟩ => ⟨S1x64, .f32⟩
  | .hbm, ⟨45, _⟩ => ⟨S100000x64, .f32⟩
  | .hbm, ⟨46, _⟩ => ⟨S_, .i32⟩
  | .hbm, ⟨47, _⟩ => ⟨S1000000, .i32⟩
  | .hbm, ⟨48, _⟩ => ⟨S1000000, .i1⟩
  | .hbm, ⟨49, _⟩ => ⟨S_, .i32⟩
  | .hbm, ⟨50, _⟩ => ⟨S1000000, .i32⟩
  | .hbm, ⟨51, _⟩ => ⟨S1000000, .i32⟩
  | .hbm, ⟨52, _⟩ => ⟨S1000000, .i32⟩
  | .hbm, ⟨53, _⟩ => ⟨S1000000x1, .i32⟩
  | .hbm, ⟨54, _⟩ => ⟨S1000000x64, .f32⟩
  | .hbm, ⟨55, _⟩ => ⟨S_, .f32⟩
  | .hbm, ⟨56, _⟩ => ⟨S100000x64, .f32⟩
  | .hbm, ⟨57, _⟩ => ⟨S1000000x1, .i32⟩
  | .hbm, ⟨58, _⟩ => ⟨S100000x64, .f32⟩
  | .hbm, ⟨59, _⟩ => ⟨S100000x64, .f32⟩
  | .hbm, ⟨60, _⟩ => ⟨S100000x64, .f32⟩
  | .hbm, ⟨61, _⟩ => ⟨S64x64, .f32⟩
  | .hbm, ⟨62, _⟩ => ⟨S64x64, .f32⟩
  | .hbm, ⟨63, _⟩ => ⟨S1x64, .f32⟩
  | .hbm, ⟨64, _⟩ => ⟨S64x1, .f32⟩
  | .hbm, ⟨65, _⟩ => ⟨S1x1, .f32⟩
  | .hbm, ⟨66, _⟩ => ⟨S100000x1, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S64x64, .f32⟩
  | .local _ .vmem, ⟨14, _⟩ => ⟨S64x64, .f32⟩
  | .local _ .vmem, ⟨15, _⟩ => ⟨S1x64, .f32⟩
  | .local _ .vmem, ⟨16, _⟩ => ⟨S64x1, .f32⟩
  | .local _ .vmem, ⟨17, _⟩ => ⟨S1x1, .f32⟩
  | .local _ .vmem, ⟨18, _⟩ => ⟨S10000x1, .f32⟩
  | .local _ .vmem, ⟨19, _⟩ => ⟨S10000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_5 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_7 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S10000x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S100000_S100000x1_0 : S100000.BroadcastsInDim S100000x1 (![0] : Fin 1 → Fin S100000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  transposes_S64x64_S64x64_1_0 : S64x64.Transposes [1, 0] S64x64
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  transposes_S1x64_S64x1_1_0 : S1x64.Transposes [1, 0] S64x1
  shapeCasts_S1_S1x1 : S1.ShapeCasts S1x1
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  scatter_S100000_S1000000x1_S1000000_n_0_0_1_wf : ScatterDims.WF S100000 S1000000x1 S1000000 [] [0] [0] 1
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S10000x64_S64x64_S10000x64_1_0_0_1_n_n_wf : DotDims.WF S10000x64 S64x64 S10000x64 [1] [0] [0] [1] [] []
  dot_S10000x64_S64x1_S10000x1_1_0_0_1_n_n_wf : DotDims.WF S10000x64 S64x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x1.size a ≤ S64x1.size a
  hwx1_5 : ∀ i : grid1.Coords, EltTy.bits .f32 = 32 ∨ (Rect.block (s := S64x1) S64x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1.size a ≤ S1x1.size a
  hwx1_6 : ∀ i : grid1.Coords, EltTy.bits .f32 = 32 ∨ (Rect.block (s := S1x1) S1x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S10000x1.size a ≤ S100000x1.size a
  hwx1_7 : ∀ i : grid1.Coords, EltTy.bits .f32 = 32 ∨ (Rect.block (s := S100000x1) S10000x1.size (cc1_transform_7 i) (hinb1_7 i)).WholeWords (EltTy.packing .f32)

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v28) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S64x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v45) S1x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v46) S10000x1.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S1x64 : Shape := ⟨2, ![1, 64]⟩
abbrev S1 : Shape := ⟨1, ![1]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S100000 : Shape := ⟨1, ![100000]⟩
abbrev S100000x1 : Shape := ⟨2, ![100000, 1]⟩
abbrev S64x1 : Shape := ⟨2, ![64, 1]⟩
abbrev S1x1 : Shape := ⟨2, ![1, 1]⟩

abbrev nBuf : Space → Nat
  | .hbm => 99
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S1x64, .f32⟩
  | .hbm, ⟨9, _⟩ => ⟨S1, .f32⟩
  | .hbm, ⟨10, _⟩ => ⟨S1x1000000, .i32⟩
  | .hbm, ⟨11, _⟩ => ⟨S1000000, .i32⟩
  | .hbm, ⟨12, _⟩ => ⟨S1x1000000, .i32⟩
  | .hbm, ⟨13, _⟩ => ⟨S1000000, .i32⟩
  | .hbm, ⟨14, _⟩ => ⟨S_, .i32⟩
  | .hbm, ⟨15, _⟩ => ⟨S1000000, .i32⟩
  | .hbm, ⟨16, _⟩ => ⟨S1000000, .i1⟩
  | .hbm, ⟨17, _⟩ => ⟨S_, .i32⟩
  | .hbm, ⟨18, _⟩ => ⟨S1000000, .i32⟩
  | .hbm, ⟨19, _⟩ => ⟨S1000000, .i32⟩
  | .hbm, ⟨20, _⟩ => ⟨S1000000, .i32⟩
  | .hbm, ⟨21, _⟩ => ⟨S1000000x1, .i32⟩
  | .hbm, ⟨22, _⟩ => ⟨S1000000x64, .f32⟩
  | .hbm, ⟨23, _⟩ => ⟨S_, .f32⟩
  | .hbm, ⟨24, _⟩ => ⟨S100000x64, .f32⟩
  | .hbm, ⟨25, _⟩ => ⟨S1000000x1, .i32⟩
  | .hbm, ⟨26, _⟩ => ⟨S100000x64, .f32⟩
  | .hbm, ⟨27, _⟩ => ⟨S_, .f32⟩
  | .hbm, ⟨28, _⟩ => ⟨S1000000, .f32⟩
  | .hbm, ⟨29, _⟩ => ⟨S_, .f32⟩
  | .hbm, ⟨30, _⟩ => ⟨S100000, .f32⟩
  | .hbm, ⟨31, _⟩ => ⟨S1000000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x64, .f32⟩
  | .hbm, ⟨38, _⟩ => ⟨S100000x64, .f32⟩
  | .hbm, ⟨39, _⟩ => ⟨S64x64, .f32⟩
  | .hbm, ⟨40, _⟩ => ⟨S100000x64, .f32⟩
  | .hbm, ⟨41, _⟩ => ⟨S1x64, .f32⟩
  | .hbm, ⟨42, _⟩ => ⟨S100000x64, .f32⟩
  | .hbm, ⟨43, _⟩ => ⟨S100000x64, .f32⟩
  | .hbm, ⟨44, _⟩ => ⟨S64x64, .f32⟩
  | .hbm, ⟨45, _⟩ => ⟨S100000x64, .f32⟩
  | .hbm, ⟨46, _⟩ => ⟨S100000x64, .f32⟩
  | .hbm, ⟨47, _⟩ => ⟨S_, .f32⟩
  | .hbm, ⟨48, _⟩ => ⟨S100000x64, .f32⟩
  | .hbm, ⟨49, _⟩ => ⟨S100000x64, .f32⟩
  | .hbm, ⟨50, _⟩ => ⟨S_, .i32⟩
  | .hbm, ⟨51, _⟩ => ⟨S1000000, .i32⟩
  | .hbm, ⟨52, _⟩ => ⟨S1000000, .i1⟩
  | .hbm, ⟨53, _⟩ => ⟨S_, .i32⟩
  | .hbm, ⟨54, _⟩ => ⟨S1000000, .i32⟩
  | .hbm, ⟨55, _⟩ => ⟨S1000000, .i32⟩
  | .hbm, ⟨56, _⟩ => ⟨S1000000, .i32⟩
  | .hbm, ⟨57, _⟩ => ⟨S1000000x1, .i32⟩
  | .hbm, ⟨58, _⟩ => ⟨S1000000x64, .f32⟩
  | .hbm, ⟨59, _⟩ => ⟨S_, .f32⟩
  | .hbm, ⟨60, _⟩ => ⟨S100000x64, .f32⟩
  | .hbm, ⟨61, _⟩ => ⟨S1000000x1, .i32⟩
  | .hbm, ⟨62, _⟩ => ⟨S100000x64, .f32⟩
  | .hbm, ⟨63, _⟩ => ⟨S_, .f32⟩
  | .hbm, ⟨64, _⟩ => ⟨S1000000, .f32⟩
  | .hbm, ⟨65, _⟩ => ⟨S_, .f32⟩
  | .hbm, ⟨66, _⟩ => ⟨S100000, .f32⟩
  | .hbm, ⟨67, _⟩ => ⟨S1000000x1, .i32⟩
  | .hbm, ⟨68, _⟩ => ⟨S100000, .f32⟩
  | .hbm, ⟨69, _⟩ => ⟨S_, .f32⟩
  | .hbm, ⟨70, _⟩ => ⟨S100000, .f32⟩
  | .hbm, ⟨71, _⟩ => ⟨S100000, .f32⟩
  | .hbm, ⟨72, _⟩ => ⟨S100000x1, .f32⟩
  | .hbm, ⟨73, _⟩ => ⟨S100000x64, .f32⟩
  | .hbm, ⟨74, _⟩ => ⟨S100000x64, .f32⟩
  | .hbm, ⟨75, _⟩ => ⟨S64x64, .f32⟩
  | .hbm, ⟨76, _⟩ => ⟨S100000x64, .f32⟩
  | .hbm, ⟨77, _⟩ => ⟨S1x64, .f32⟩
  | .hbm, ⟨78, _⟩ => ⟨S100000x64, .f32⟩
  | .hbm, ⟨79, _⟩ => ⟨S100000x64, .f32⟩
  | .hbm, ⟨80, _⟩ => ⟨S64x64, .f32⟩
  | .hbm, ⟨81, _⟩ => ⟨S100000x64, .f32⟩
  | .hbm, ⟨82, _⟩ => ⟨S100000x64, .f32⟩
  | .hbm, ⟨83, _⟩ => ⟨S_, .f32⟩
  | .hbm, ⟨84, _⟩ => ⟨S100000x64, .f32⟩
  | .hbm, ⟨85, _⟩ => ⟨S100000x64, .f32⟩
  | .hbm, ⟨86, _⟩ => ⟨S64x1, .f32⟩
  | .hbm, ⟨87, _⟩ => ⟨S100000x1, .f32⟩
  | .hbm, ⟨88, _⟩ => ⟨S1x1, .f32⟩
  | .hbm, ⟨89, _⟩ => ⟨S100000x1, .f32⟩
  | .hbm, ⟨90, _⟩ => ⟨S100000x1, .f32⟩
  | .hbm, ⟨91, _⟩ => ⟨S100000x1, .f32⟩
  | .hbm, ⟨92, _⟩ => ⟨S100000x1, .f32⟩
  | .hbm, ⟨93, _⟩ => ⟨S_, .f32⟩
  | .hbm, ⟨94, _⟩ => ⟨S100000x1, .f32⟩
  | .hbm, ⟨95, _⟩ => ⟨S100000x1, .f32⟩
  | .hbm, ⟨96, _⟩ => ⟨S_, .f32⟩
  | .hbm, ⟨97, _⟩ => ⟨S100000x1, .f32⟩
  | .hbm, ⟨98, _⟩ => ⟨S100000x1, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call0_cst : Ref sig .tc := ⟨.hbm, 47, rfl⟩
abbrev main_call0_v0 : Ref sig .tc := ⟨.hbm, 48, rfl⟩
abbrev main_v31 : Ref sig .tc := ⟨.hbm, 49, rfl⟩
abbrev main_c_4 : Ref sig .tc := ⟨.hbm, 50, rfl⟩
abbrev main_v32 : Ref sig .tc := ⟨.hbm, 51, rfl⟩
abbrev main_v33 : Ref sig .tc := ⟨.hbm, 52, rfl⟩
abbrev main_c_5 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_6 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_7 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_9 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_call1_cst : Ref sig .tc := ⟨.hbm, 83, rfl⟩
abbrev main_call1_v0 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_10 : Ref sig .tc := ⟨.hbm, 93, rfl⟩
abbrev main_v67 : Ref sig .tc := ⟨.hbm, 94, rfl⟩
abbrev main_v68 : Ref sig .tc := ⟨.hbm, 95, rfl⟩
abbrev main_cst_11 : Ref sig .tc := ⟨.hbm, 96, rfl⟩
abbrev main_v69 : Ref sig .tc := ⟨.hbm, 97, rfl⟩
abbrev main_v70 : Ref sig .tc := ⟨.hbm, 98, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  transposes_S1x64_S64x1_1_0 : S1x64.Transposes [1, 0] S64x1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  scatter_S100000_S1000000x1_S1000000_n_0_0_1_wf : ScatterDims.WF S100000 S1000000x1 S1000000 [] [0] [0] 1
  dot_S100000x64_S64x64_S100000x64_1_0_0_1_n_n_wf : DotDims.WF S100000x64 S64x64 S100000x64 [1] [0] [0] [1] [] []
  dot_S100000x64_S64x1_S100000x1_1_0_0_1_n_n_wf : DotDims.WF S100000x64 S64x1 S100000x1 [1] [0] [0] [1] [] []

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.KernelRun.lean ====
/-
  The kernel program's run with its result named.

  The program is four stretches: host operations, the first grid of row blocks, host operations, the second grid.
  Every weakly fair execution terminates without a fault, the ten argument arrays end as launched, and the result
  array ends holding the contents the fold of those four stretches leaves in it: the host operations' values
  composed through the first grid's output array, and the second grid's output written back block by block.
-/
import proofs.«147963_j56633438765477_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result array ends at the last
    boundary's contents and the arguments as launched. -/
theorem run_named : θ_run defs (onTc (τ := τ) (main (F := F))) ⟨m, fun _ => 0, ρ⟩ (fun r => ∀ c : Dev nD,
      r.2.mem ((c.tc : Thread nD τ).loc main_v46) = W4 m ρ c (Proc.devRef .tc main_v46)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v46 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Cert.KernelIdeal.RunValue

end
-- ==== Proof.Payload.lean ====
/-
  The two block bodies' arithmetic, read at one entry, on the extended reals.

  Both bodies work on a block of 10000 rows. The first computes, at row `p` and column `q`,
      max (Σ_k x1(p,k)·w1(k,q) + Σ_k x0(p,k)·w2(k,q) + b(0,q)) 0,
  where `x1` is the body's second argument (the neighbourhood means) and `x0` its first (the features). The second
  computes the same layer at every column `j` of row `p`, multiplies the row by a 64×1 column, adds a 1×1 bias and
  applies the logistic function. On the extended reals a change of float format is the identity, a matrix product
  into a zero accumulator is the plain sum over the contracted coordinate, a cast of a shape to itself is the
  identity, and a row (or a single entry) spread over the rows reads the same entry at every row; the lemmas below say
  each of these at an entry `(p, q)` and the two theorems at the end put them together.
-/
import proofs.«147963_j56633438765477_1_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.PayValue

open Cert.KernelIdeal Cert.KernelIdeal.Facts₀ Idealize.ShloMosaic Idealize.ShloMosaic.ValueIdx Idealize.SL.Sem

/-- The row coordinate of the left operand's index in a 10000×64 by 64×64 product is the output's row. -/
theorem lhs64_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
/-- Its column coordinate is the contracted one. -/
theorem lhs64_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
/-- The right operand's row coordinate is the contracted one. -/
theorem rhs64_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
/-- Its column coordinate is the output's column. -/
theorem rhs64_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- A 10000×64 by 64×64 product into a zero accumulator, its operands narrowed on the way in (the identity on the
    extended reals), at row `p`, column `q`: the sum over the contracted coordinate. -/
theorem mm64_apply (a : FVec Ideal S10000x64 .f32) (w : FVec Ideal S64x64 .f32) (p : Fin 10000) (q : Fin 64) :
    matmul dot_S10000x64_S64x64_S10000x64_1_0_0_1_n_n none (truncf .bf16 a bitsLt_bf16_f32) (truncf .bf16 w bitsLt_bf16_f32)
        (constant (F := Ideal) S10000x64 .f32 0x00000000#32) (ix2 p q)
      = ∑ k : Fin 64, a (ix2 p k) * w (ix2 k q) := by
  refine (Ideal.matmul_constant_zero_apply dot_S10000x64_S64x64_S10000x64_1_0_0_1_n_n none _ _ (ix2 p q)).trans ?_
  rw [← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k := funext fun a => Fin.ext (by
    match a with
    | ⟨0, _⟩ => exact lhs64_0 _ _
    | ⟨1, _⟩ => exact (lhs64_1 _ _).trans hk)
  have er : dot_S10000x64_S64x64_S10000x64_1_0_0_1_n_n.rhsIdx (ix2 p q) ((contrEquiv1 dot_S10000x64_S64x64_S10000x64_1_0_0_1_n_n 64 rfl rfl).symm k) = ix2 k q := funext fun a => Fin.ext (by
    match a with
    | ⟨0, _⟩ => exact (rhs64_0 _ _).trans hk
    | ⟨1, _⟩ => exact rhs64_1 _ _)
  rw [el, er]
  rfl

/-- The row coordinate of the left operand's index in a 10000×64 by 64×1 product is the output's row. -/
theorem lhs1_0 (i : S10000x1.Idx) (q : dot_S10000x64_S64x1_S10000x1_1_0_0_1_n_n.contr.Idx) :
    (dot_S10000x64_S64x1_S10000x1_1_0_0_1_n_n.lhsIdx i q 0).val = (i 0).val := by
  unfold DotDims.lhsIdx
  rw [dif_neg (show ¬(0 : Fin S10000x64.rank) ∈ dot_S10000x64_S64x1_S10000x1_1_0_0_1_n_n.lhsBatch by decide), dif_pos (show (0 : Fin S10000x64.rank) ∈ dot_S10000x64_S64x1_S10000x1_1_0_0_1_n_n.lhsNonContracting by decide)]
  rfl
/-- Its column coordinate is the contracted one. -/
theorem lhs1_1 (i : S10000x1.Idx) (q : dot_S10000x64_S64x1_S10000x1_1_0_0_1_n_n.contr.Idx) :
    (dot_S10000x64_S64x1_S10000x1_1_0_0_1_n_n.lhsIdx i q 1).val = (q ⟨0, by decide⟩).val :=
  dot_S10000x64_S64x1_S10000x1_1_0_0_1_n_n.lhsIdx_val_of_single rfl i q
/-- The column operand's row coordinate is the contracted one. -/
theorem rhs1_0 (i : S10000x1.Idx) (q : dot_S10000x64_S64x1_S10000x1_1_0_0_1_n_n.contr.Idx) :
    (dot_S10000x64_S64x1_S10000x1_1_0_0_1_n_n.rhsIdx i q 0).val = (q ⟨0, by decide⟩).val :=
  dot_S10000x64_S64x1_S10000x1_1_0_0_1_n_n.rhsIdx_val_of_single rfl i q
/-- Its column coordinate is the output's (the only one). -/
theorem rhs1_1 (i : S10000x1.Idx) (q : dot_S10000x64_S64x1_S10000x1_1_0_0_1_n_n.contr.Idx) :
    (dot_S10000x64_S64x1_S10000x1_1_0_0_1_n_n.rhsIdx i q 1).val = (i 1).val := by
  unfold DotDims.rhsIdx
  rw [dif_neg (show ¬(1 : Fin S64x1.rank) ∈ dot_S10000x64_S64x1_S10000x1_1_0_0_1_n_n.rhsBatch by decide), dif_pos (show (1 : Fin S64x1.rank) ∈ dot_S10000x64_S64x1_S10000x1_1_0_0_1_n_n.rhsNonContracting by decide)]
  rfl

/-- A 10000×64 by 64×1 product into a zero accumulator, its operands narrowed on the way in, at row `p`: the sum
    over the contracted coordinate. -/
theorem mm1_apply (a : FVec Ideal S10000x64 .f32) (w : FVec Ideal S64x1 .f32) (p : Fin 10000) :
    matmul dot_S10000x64_S64x1_S10000x1_1_0_0_1_n_n none (truncf .bf16 a bitsLt_bf16_f32) (truncf .bf16 w bitsLt_bf16_f32)
        (constant (F := Ideal) S10000x1 .f32 0x00000000#32) (ix2 p 0)
      = ∑ k : Fin 64, a (ix2 p k) * w (ix2 k 0) := by
  refine (Ideal.matmul_constant_zero_apply dot_S10000x64_S64x1_S10000x1_1_0_0_1_n_n none _ _ (ix2 p 0)).trans ?_
  rw [← Equiv.sum_comp (contrEquiv1 dot_S10000x64_S64x1_S10000x1_1_0_0_1_n_n 64 rfl rfl).symm]
  refine Finset.sum_congr rfl fun k _ => ?_
  have hk := contrEquiv1_symm_val dot_S10000x64_S64x1_S10000x1_1_0_0_1_n_n 64 rfl rfl k
  have el : dot_S10000x64_S64x1_S10000x1_1_0_0_1_n_n.lhsIdx (ix2 p 0) ((contrEquiv1 dot_S10000x64_S64x1_S10000x1_1_0_0_1_n_n 64 rfl rfl).symm k) = ix2 p k := funext fun a => Fin.ext (by
    match a with
    | ⟨0, _⟩ => exact lhs1_0 _ _
    | ⟨1, _⟩ => exact (lhs1_1 _ _).trans hk)
  have er : dot_S10000x64_S64x1_S10000x1_1_0_0_1_n_n.rhsIdx (ix2 p 0) ((contrEquiv1 dot_S10000x64_S64x1_S10000x1_1_0_0_1_n_n 64 rfl rfl).symm k) = ix2 k 0 := funext fun a => Fin.ext (by
    match a with
    | ⟨0, _⟩ => exact (rhs1_0 _ _).trans hk
    | ⟨1, _⟩ => exact rhs1_1 _ _)
  rw [el, er]
  rfl

/-- The bias row spread over 10000 rows reads, at row `p`, column `q`, the row's entry `q`. -/
theorem bias_apply (b : FVec Ideal S1x64 .f32) (p : Fin 10000) (q : Fin 64) :
    broadcastTo S10000x64 b broadcasts_S1x64_S10000x64 (ix2 p q) = b (ix2 0 q) :=
  broadcastTo_apply b broadcasts_S1x64_S10000x64 (ix2 p q) (ix2 0 q) (fun a => match a with
    | ⟨0, _⟩ => by show 0 = if (1 : Nat) = 1 then 0 else p.val; rw [if_pos rfl]
    | ⟨1, _⟩ => by show q.val = if (64 : Nat) = 1 then 0 else q.val; rw [if_neg (by decide)])

/-- The 1×1 bias spread over 10000 rows reads its one entry at every row. -/
theorem bias1_apply (b : FVec Ideal S1x1 .f32) (p : Fin 10000) :
    broadcastTo S10000x1 b broadcasts_S1x1_S10000x1 (ix2 p 0) = b (ix2 0 0) :=
  broadcastTo_apply b broadcasts_S1x1_S10000x1 (ix2 p 0) (ix2 0 0) (fun a => match a with
    | ⟨0, _⟩ => by show 0 = if (1 : Nat) = 1 then 0 else p.val; rw [if_pos rfl]
    | ⟨1, _⟩ => by show 0 = if (1 : Nat) = 1 then 0 else 0; rw [if_pos rfl])

/-- One layer's arithmetic on a block of 10000 rows, at row `p`, column `q`: the second argument's product with the
    first matrix, the first argument's product with the second matrix, the bias row's entry, clamped below at zero. -/
theorem relu_apply (x0 x1 : FVec Ideal S10000x64 .f32) (w1 w2 : FVec Ideal S64x64 .f32) (b : FVec Ideal S1x64 .f32) (p : Fin 10000) (q : Fin 64) :
    maximumf
        (addf
          (addf
            (matmul dot_S10000x64_S64x64_S10000x64_1_0_0_1_n_n none (truncf .bf16 x1 bitsLt_bf16_f32) (truncf .bf16 w1 bitsLt_bf16_f32)
              (constant (F := Ideal) S10000x64 .f32 0x00000000#32))
            (matmul dot_S10000x64_S64x64_S10000x64_1_0_0_1_n_n none (truncf .bf16 x0 bitsLt_bf16_f32) (truncf .bf16 w2 bitsLt_bf16_f32)
              (constant (F := Ideal) S10000x64 .f32 0x00000000#32)))
          (broadcastTo S10000x64 b broadcasts_S1x64_S10000x64))
        (broadcast S10000x64 (Scalar.ofBits (F := Ideal) .f32 0x00000000#32)) (ix2 p q)
      = max ((∑ k : Fin 64, x1 (ix2 p k) * w1 (ix2 k q)) + (∑ k : Fin 64, x0 (ix2 p k) * w2 (ix2 k q)) + b (ix2 0 q)) 0 := by
  show max ((matmul dot_S10000x64_S64x64_S10000x64_1_0_0_1_n_n none (truncf .bf16 x1 bitsLt_bf16_f32) (truncf .bf16 w1 bitsLt_bf16_f32)
          (constant (F := Ideal) S10000x64 .f32 0x00000000#32) (ix2 p q))
        + (matmul dot_S10000x64_S64x64_S10000x64_1_0_0_1_n_n none (truncf .bf16 x0 bitsLt_bf16_f32) (truncf .bf16 w2 bitsLt_bf16_f32)
          (constant (F := Ideal) S10000x64 .f32 0x00000000#32) (ix2 p q))
        + broadcastTo S10000x64 b broadcasts_S1x64_S10000x64 (ix2 p q)) (Ideal.ofBits .f32 0x00000000#32) = _
  rw [mm64_apply x1 w1 p q, mm64_apply x0 w2 p q, bias_apply b p q, Ideal.ofBits_zero_f32]

/-- The first layer's block arithmetic at row `p`, column `q`: the neighbourhood means' product with the first matrix,
    the features' product with the second, the bias row's entry, clamped below at zero. -/
theorem pay0_apply (x0 x1 : Vec Ideal S10000x64 .f32) (w1 w2 : Vec Ideal S64x64 .f32) (b : Vec Ideal S1x64 .f32) (p : Fin 10000) (q : Fin 64) :
    Gen.k0_pay1 (F := Ideal) x0 x1 w1 w2 b (ix2 p q)
      = max ((∑ k : Fin 64, x1 (ix2 p k) * w1 (ix2 k q)) + (∑ k : Fin 64, x0 (ix2 p k) * w2 (ix2 k q)) + b (ix2 0 q)) 0 := by
  unfold Gen.k0_pay1
  simp only [shapeCast_self]
  exact relu_apply x0 x1 w1 w2 b p q

/-- The second layer's block arithmetic at row `p`: the same layer at every column `j` of the row, its product with
    the 64×1 column, the 1×1 bias, and the logistic function of the result. -/
theorem pay1_apply (x0 x1 : Vec Ideal S10000x64 .f32) (w1 w2 : Vec Ideal S64x64 .f32) (b : Vec Ideal S1x64 .f32)
    (wo : Vec Ideal S64x1 .f32) (bo : Vec Ideal S1x1 .f32) (p : Fin 10000) :
    Gen.k1_pay1 (F := Ideal) x0 x1 w1 w2 b wo bo (ix2 p 0)
      = Ideal.logistic ((∑ j : Fin 64, max ((∑ k : Fin 64, x1 (ix2 p k) * w1 (ix2 k j)) + (∑ k : Fin 64, x0 (ix2 p k) * w2 (ix2 k j)) + b (ix2 0 j)) 0 * wo (ix2 j 0)) + bo (ix2 0 0)) := by
  unfold Gen.k1_pay1
  simp only [shapeCast_self]
  show Ideal.logistic (matmul dot_S10000x64_S64x1_S10000x1_1_0_0_1_n_n none (truncf .bf16 _ bitsLt_bf16_f32) (truncf .bf16 wo bitsLt_bf16_f32)
          (constant (F := Ideal) S10000x1 .f32 0x00000000#32) (ix2 p 0)
        + broadcastTo S10000x1 bo broadcasts_S1x1_S10000x1 (ix2 p 0)) = _
  rw [mm1_apply _ wo p, bias1_apply bo p]
  exact congrArg Ideal.logistic (congrArg (· + bo (ix2 0 0)) (Finset.sum_congr rfl fun j _ =>
    congrArg (· * wo (ix2 j 0)) (relu_apply x0 x1 w1 w2 b p j)))

end Cert.KernelIdeal.PayValue

end
-- ==== Proof.HostRead.lean ====
/-
  The kernel program's host operations read back, at the extended reals.

  Before the first grid the host splits the edge list into sources and destinations, counts the edges arriving at
  each node, takes the reciprocal of the count clamped below at one, sums the sources' feature rows at each
  destination and multiplies by that reciprocal; it transposes the weight matrices and reshapes the bias to a row.
  Between the grids it does the same with the first grid's output in place of the input features. Each lemma
  here says what one buffer holds at a grid's entry as a term of the launch contents (and, for the second
  stretch, of the first grid's output array).
-/
import proofs.«147963_j56633438765477_1_alg».proof.Proof.Gen.KernelIdeal.Frame
import Idealize.ShloMosaic.Lib.StableHlo.Run
import Idealize.ShloMosaic.PureOps.Ideal

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.StableHlo

/-! ## The host's terms, as functions of the edge list and a feature array -/

/-- The edges' sources: row 0 of the edge list. -/
def srcK (x1 : IVec S2x1000000 32) : IVec S1000000 32 :=
  shapeCast _ (extractStridedSlice S1x1000000 ![0, 0] x1 slices_S2x1000000_S1x1000000_0_0) shapeCasts_S1x1000000_S1000000
/-- The edges' destinations: row 1 of the edge list. -/
def dstK (x1 : IVec S2x1000000 32) : IVec S1000000 32 :=
  shapeCast _ (extractStridedSlice S1x1000000 ![1, 0] x1 slices_S2x1000000_S1x1000000_1_0) shapeCasts_S1x1000000_S1000000
/-- The sources as gather start indices: a negative source counts from the end. -/
def srcIdxK (x1 : IVec S2x1000000 32) : IVec S1000000x1 32 :=
  broadcastInDim S1000000x1 ![0] bcast_S1000000_S1000000x1_0
    (select (cmpi .slt (srcK x1) (broadcastInDim S1000000 ![] bcast_S_S1000000 (constantI S_ 32 0#32)))
      (addi (srcK x1) (broadcastInDim S1000000 ![] bcast_S_S1000000 (constantI S_ 32 100000#32))) (srcK x1))
/-- The destinations as scatter indices. -/
def dstIdxK (x1 : IVec S2x1000000 32) : IVec S1000000x1 32 :=
  broadcastInDim S1000000x1 ![0] bcast_S1000000_S1000000x1_0 (dstK x1)
/-- The sum, at each node, of the feature rows of the sources of the edges arriving there. -/
def aggK (x1 : IVec S2x1000000 32) (h : FVec Ideal S100000x64 .f32) : FVec Ideal S100000x64 .f32 :=
  Host.scatterAdd scatter_S100000x64_S1000000x1_S1000000x64_1_0_0_1
    (broadcastInDim S100000x64 ![] bcast_S_S100000x64 (constant S_ .f32 0x00000000#32)) (dstIdxK x1)
    (Host.gather gather_S100000x64_S1000000x1_S1000000x64_1_0_n_n_0_1_164 h (srcIdxK x1))
/-- The number of edges arriving at each node. -/
def cntK (x1 : IVec S2x1000000 32) : FVec Ideal S100000 .f32 :=
  Host.scatterAdd scatter_S100000_S1000000x1_S1000000_n_0_0_1
    (broadcastInDim S100000 ![] bcast_S_S100000 (constant S_ .f32 0x00000000#32)) (dstIdxK x1)
    (broadcastInDim S1000000 ![] bcast_S_S1000000 (constant S_ .f32 0x3F800000#32))
/-- The reciprocal of the count clamped below at one, as a column. -/
def invK (x1 : IVec S2x1000000 32) : FVec Ideal S100000x1 .f32 :=
  broadcastInDim S100000x1 ![0] bcast_S100000_S100000x1_0
    (Host.divf (broadcastInDim S100000 ![] bcast_S_S100000 (constant S_ .f32 0x3F800000#32))
      (maximumf (cntK x1) (broadcastInDim S100000 ![] bcast_S_S100000 (constant S_ .f32 0x3F800000#32))))
/-- The neighbourhood mean as the kernel's host takes it: the sum times the reciprocal. -/
def meanK (x1 : IVec S2x1000000 32) (h : FVec Ideal S100000x64 .f32) : FVec Ideal S100000x64 .f32 :=
  mulf (aggK x1 h) (broadcastInDim S100000x64 ![0, 1] bcast_S100000x1_S100000x64_0_1 (invK x1))

variable (m : (ℓ : Loc nD τ sig) → Buf (Elt Ideal) ℓ) (ρ : Dev nD → PrngReg) (c : Dev nD)

/-! ## At the first grid's entry -/

theorem W1_arg0 : W1 m ρ c (Proc.devRef .tc main_arg0) = m ((c.tc : Thread nD τ).loc main_arg0) := by
  show StableHlo.after hostOps0 (W0 m ρ c) (Proc.devRef .tc main_arg0) = _
  after_results_simp <;> rfl
theorem W1_v1 : W1 m ρ c (Proc.devRef .tc main_v1) = srcK (m ((c.tc : Thread nD τ).loc main_arg1)) := by
  show StableHlo.after hostOps0 (W0 m ρ c) (Proc.devRef .tc main_v1) = _
  unfold srcK
  after_results_simp <;> rfl
theorem W1_v3 : W1 m ρ c (Proc.devRef .tc main_v3) = dstK (m ((c.tc : Thread nD τ).loc main_arg1)) := by
  show StableHlo.after hostOps0 (W0 m ρ c) (Proc.devRef .tc main_v3) = _
  unfold dstK
  after_results_simp <;> rfl
theorem W1_v12 : W1 m ρ c (Proc.devRef .tc main_v12) = invK (m ((c.tc : Thread nD τ).loc main_arg1)) := by
  show StableHlo.after hostOps0 (W0 m ρ c) (Proc.devRef .tc main_v12) = _
  unfold invK cntK dstIdxK dstK
  after_results_simp <;> rfl
theorem W1_v24 : W1 m ρ c (Proc.devRef .tc main_v24)
    = meanK (m ((c.tc : Thread nD τ).loc main_arg1)) (m ((c.tc : Thread nD τ).loc main_arg0)) := by
  show StableHlo.after hostOps0 (W0 m ρ c) (Proc.devRef .tc main_v24) = _
  unfold meanK aggK invK cntK srcIdxK dstIdxK srcK dstK
  after_results_simp <;> rfl
theorem W1_v25 : W1 m ρ c (Proc.devRef .tc main_v25)
    = transpose S64x64 [1, 0] (m ((c.tc : Thread nD τ).loc main_arg2)) transposes_S64x64_S64x64_1_0 := by
  show StableHlo.after hostOps0 (W0 m ρ c) (Proc.devRef .tc main_v25) = _
  after_results_simp <;> rfl
theorem W1_v26 : W1 m ρ c (Proc.devRef .tc main_v26)
    = transpose S64x64 [1, 0] (m ((c.tc : Thread nD τ).loc main_arg4)) transposes_S64x64_S64x64_1_0 := by
  show StableHlo.after hostOps0 (W0 m ρ c) (Proc.devRef .tc main_v26) = _
  after_results_simp <;> rfl
theorem W1_v27 : W1 m ρ c (Proc.devRef .tc main_v27)
    = shapeCast _ (m ((c.tc : Thread nD τ).loc main_arg3)) shapeCasts_S64_S1x64 := by
  show StableHlo.after hostOps0 (W0 m ρ c) (Proc.devRef .tc main_v27) = _
  after_results_simp <;> rfl

/-! ## Between the grids: what the first grid left, and what it did not touch -/

theorem W2_v1 : W2 m ρ c (Proc.devRef .tc main_v1) = srcK (m ((c.tc : Thread nD τ).loc main_arg1)) :=
  (W2_of_ne m ρ c main_v1 (by decide)).trans (W1_v1 m ρ c)
theorem W2_v3 : W2 m ρ c (Proc.devRef .tc main_v3) = dstK (m ((c.tc : Thread nD τ).loc main_arg1)) :=
  (W2_of_ne m ρ c main_v3 (by decide)).trans (W1_v3 m ρ c)
theorem W2_v12 : W2 m ρ c (Proc.devRef .tc main_v12) = invK (m ((c.tc : Thread nD τ).loc main_arg1)) :=
  (W2_of_ne m ρ c main_v12 (by decide)).trans (W1_v12 m ρ c)
theorem W2_arg5 : W2 m ρ c (Proc.devRef .tc main_arg5) = m ((c.tc : Thread nD τ).loc main_arg5) :=
  (W2_of_ne m ρ c main_arg5 (by decide)).trans (by
    show StableHlo.after hostOps0 (W0 m ρ c) (Proc.devRef .tc main_arg5) = _
    after_results_simp <;> rfl)
theorem W2_arg6 : W2 m ρ c (Proc.devRef .tc main_arg6) = m ((c.tc : Thread nD τ).loc main_arg6) :=
  (W2_of_ne m ρ c main_arg6 (by decide)).trans (by
    show StableHlo.after hostOps0 (W0 m ρ c) (Proc.devRef .tc main_arg6) = _
    after_results_simp <;> rfl)
theorem W2_arg7 : W2 m ρ c (Proc.devRef .tc main_arg7) = m ((c.tc : Thread nD τ).loc main_arg7) :=
  (W2_of_ne m ρ c main_arg7 (by decide)).trans (by
    show StableHlo.after hostOps0 (W0 m ρ c) (Proc.devRef .tc main_arg7) = _
    after_results_simp <;> rfl)
theorem W2_arg8 : W2 m ρ c (Proc.devRef .tc main_arg8) = m ((c.tc : Thread nD τ).loc main_arg8) :=
  (W2_of_ne m ρ c main_arg8 (by decide)).trans (by
    show StableHlo.after hostOps0 (W0 m ρ c) (Proc.devRef .tc main_arg8) = _
    after_results_simp <;> rfl)
theorem W2_arg9 : W2 m ρ c (Proc.devRef .tc main_arg9) = m ((c.tc : Thread nD τ).loc main_arg9) :=
  (W2_of_ne m ρ c main_arg9 (by decide)).trans (by
    show StableHlo.after hostOps0 (W0 m ρ c) (Proc.devRef .tc main_arg9) = _
    after_results_simp <;> rfl)

/-! ## At the second grid's entry -/

theorem W3_v28 : W3 m ρ c (Proc.devRef .tc main_v28) = W2 m ρ c (Proc.devRef .tc main_v28) := by
  show StableHlo.after hostOps1 (W2 m ρ c) (Proc.devRef .tc main_v28) = _
  after_results_simp <;> rfl
theorem W3_v40 : W3 m ρ c (Proc.devRef .tc main_v40)
    = meanK (m ((c.tc : Thread nD τ).loc main_arg1)) (W2 m ρ c (Proc.devRef .tc main_v28)) := by
  show StableHlo.after hostOps1 (W2 m ρ c) (Proc.devRef .tc main_v40) = _
  unfold meanK aggK srcIdxK dstIdxK
  rw [← W2_v12 m ρ c, ← W2_v1 m ρ c, ← W2_v3 m ρ c]
  after_results_simp <;> rfl
theorem W3_v41 : W3 m ρ c (Proc.devRef .tc main_v41)
    = transpose S64x64 [1, 0] (m ((c.tc : Thread nD τ).loc main_arg5)) transposes_S64x64_S64x64_1_0 := by
  show StableHlo.after hostOps1 (W2 m ρ c) (Proc.devRef .tc main_v41) = _
  rw [← W2_arg5 m ρ c]
  after_results_simp <;> rfl
theorem W3_v42 : W3 m ρ c (Proc.devRef .tc main_v42)
    = transpose S64x64 [1, 0] (m ((c.tc : Thread nD τ).loc main_arg7)) transposes_S64x64_S64x64_1_0 := by
  show StableHlo.after hostOps1 (W2 m ρ c) (Proc.devRef .tc main_v42) = _
  rw [← W2_arg7 m ρ c]
  after_results_simp <;> rfl
theorem W3_v43 : W3 m ρ c (Proc.devRef .tc main_v43)
    = shapeCast _ (m ((c.tc : Thread nD τ).loc main_arg6)) shapeCasts_S64_S1x64 := by
  show StableHlo.after hostOps1 (W2 m ρ c) (Proc.devRef .tc main_v43) = _
  rw [← W2_arg6 m ρ c]
  after_results_simp <;> rfl
theorem W3_v44 : W3 m ρ c (Proc.devRef .tc main_v44)
    = transpose S64x1 [1, 0] (m ((c.tc : Thread nD τ).loc main_arg8)) transposes_S1x64_S64x1_1_0 := by
  show StableHlo.after hostOps1 (W2 m ρ c) (Proc.devRef .tc main_v44) = _
  rw [← W2_arg8 m ρ c]
  after_results_simp <;> rfl
theorem W3_v45 : W3 m ρ c (Proc.devRef .tc main_v45)
    = shapeCast _ (m ((c.tc : Thread nD τ).loc main_arg9)) shapeCasts_S1_S1x1 := by
  show StableHlo.after hostOps1 (W2 m ρ c) (Proc.devRef .tc main_v45) = _
  rw [← W2_arg9 m ρ c]
  after_results_simp <;> rfl

end Cert.KernelIdeal.HostValue

end
-- ==== Proof.Spec.lean ====
/-
  The mathematics of the two-layer neighbourhood-mean network, one entry at a time, on the extended reals.

  A layer takes the node features `h` (100000 rows of 64), the neighbourhood means `mn` of the same extent, two
  64×64 matrices `wl`, `wr` as they enter the products (rows indexed by the contracted feature), and a bias row
  `b`, and gives at row `r`, column `j`
      max (Σ_k mn(r,k)·wl(k,j) + Σ_k h(r,k)·wr(k,j) + b(0,j)) 0.
  The head takes the second layer's features, a 64×1 column `wo` and a 1×1 bias and gives at row `r` the
  logistic function of Σ_k h2(r,k)·wo(k,0) + bo(0,0).
  Nothing here mentions a program: both programs are shown to compute these two functions.
-/
import Idealize.ShloMosaic.PureOps.Ideal
import Idealize.ShloMosaic.Lib.ValueIdx

noncomputable section

open scoped BigOperators

namespace Cert.Sage

open Idealize.ShloMosaic Idealize.ShloMosaic.ValueIdx

/-- 100000 rows of 64 features. -/
abbrev SN64 : Shape := ⟨2, ![100000, 64]⟩
/-- 100000 rows of one value. -/
abbrev SN1 : Shape := ⟨2, ![100000, 1]⟩
/-- A 64×64 matrix. -/
abbrev SW : Shape := ⟨2, ![64, 64]⟩
/-- A row of 64. -/
abbrev SRow : Shape := ⟨2, ![1, 64]⟩
/-- A column of 64. -/
abbrev SCol : Shape := ⟨2, ![64, 1]⟩
/-- A single entry as a 1×1 matrix. -/
abbrev SOne : Shape := ⟨2, ![1, 1]⟩

/-- One layer at row `r`, column `j`: the two products' entries, the bias, clamped below at zero. -/
def layerAt (h mn : SN64.Idx → EReal) (wl wr : SW.Idx → EReal) (b : SRow.Idx → EReal) (r : Fin 100000) (j : Fin 64) : EReal :=
  max ((∑ k : Fin 64, mn (ix2 r k) * wl (ix2 k j)) + (∑ k : Fin 64, h (ix2 r k) * wr (ix2 k j)) + b (ix2 0 j)) 0

/-- One layer as a whole array. -/
def layer (h mn : SN64.Idx → EReal) (wl wr : SW.Idx → EReal) (b : SRow.Idx → EReal) : SN64.Idx → EReal :=
  fun i => layerAt h mn wl wr b (i 0) (i 1)

theorem layer_ix2 (h mn : SN64.Idx → EReal) (wl wr : SW.Idx → EReal) (b : SRow.Idx → EReal) (r : Fin 100000) (j : Fin 64) :
    layer h mn wl wr b (ix2 r j) = layerAt h mn wl wr b r j := rfl

/-- The head at row `r`: the logistic function of the row's product with the column, plus the bias. -/
def headAt (h2 : SN64.Idx → EReal) (wo : SCol.Idx → EReal) (bo : SOne.Idx → EReal) (r : Fin 100000) : EReal :=
  Ideal.logistic ((∑ k : Fin 64, h2 (ix2 r k) * wo (ix2 k 0)) + bo (ix2 0 0))

/-- The head as a whole array. -/
def head (h2 : SN64.Idx → EReal) (wo : SCol.Idx → EReal) (bo : SOne.Idx → EReal) : SN1.Idx → EReal :=
  fun i => headAt h2 wo bo (i 0)

theorem head_ix2 (h2 : SN64.Idx → EReal) (wo : SCol.Idx → EReal) (bo : SOne.Idx → EReal) (r : Fin 100000) :
    head h2 wo bo (ix2 r 0) = headAt h2 wo bo r := rfl

/-- A mean taken by multiplying with the reciprocal is the mean taken by dividing, whenever the divisor is not
    zero: both are the product with the divisor's inverse. No finiteness is needed. -/
theorem mul_recip_eq_div (a y : EReal) (hy : y ≠ 0) : a * Ideal.div 1 y = Ideal.div a y := by
  rw [Ideal.div, Ideal.div, if_neg hy, if_neg hy, one_mul]

/-- A count clamped below at one is not zero. -/
theorem max_one_ne_zero (x : EReal) : max x 1 ≠ 0 :=
  ne_of_gt (lt_of_lt_of_le zero_lt_one (le_max_right x 1))

end Cert.Sage

end
-- ==== Proof.RegionValue.lean ====
/-
  From one grid point to the whole output array, for the two blocked regions of the two-layer neighbourhood-mean network.

  Each region runs over ten grid points. At point `t` its two row-blocked inputs and its output hold rows
  `10000·t … 10000·t + 9999` of their arrays (block `(t, 0)`), and every small input (the weight matrices, the bias row,
  the head's column and its 1×1 bias) is its whole array (block `(0, 0)`). The body's arithmetic at one index of a block is
  taken as a hypothesis (`Pay0`, `Pay1`). From it: what a point writes back is block `t` of ONE function of the arrays as the
  region finds them — the layer, and the head over the layer —, because row `p` of block `t` is row `10000·t + p` of each
  row-blocked array and the small arrays are read whole; row `r` of the output lies in the block of point `r / 10000`, and
  every point writes back; so after the last point the output array is that function.
-/
import proofs.«147963_j56633438765477_1_alg».proof.Proof.Gen.KernelIdeal.Frame
import proofs.«147963_j56633438765477_1_alg».proof.Proof.Spec
import Idealize.ShloMosaic.Lib.Pipeline.Value

noncomputable section

open scoped BigOperators

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

/-! ## The bodies' arithmetic at one index, as hypotheses -/

/-- Region 0's body at row `p`, column `q` of a block: the two products' entries and the bias, clamped below at zero. -/
def Pay0 : Prop := ∀ (x0 x1 : Vec Ideal S10000x64 .f32) (w1 w2 : Vec Ideal S64x64 .f32) (b : Vec Ideal S1x64 .f32) (p : Fin 10000) (q : Fin 64),
    Gen.k0_pay1 (F := Ideal) x0 x1 w1 w2 b (ix2 p q)
      = max ((∑ k : Fin 64, x1 (ix2 p k) * w1 (ix2 k q)) + (∑ k : Fin 64, x0 (ix2 p k) * w2 (ix2 k q)) + b (ix2 0 q)) 0
/-- Region 1's body at row `p` of a block: the logistic function of the row of clamped sums times the column, plus the bias. -/
def Pay1 : Prop := ∀ (x0 x1 : Vec Ideal S10000x64 .f32) (w1 w2 : Vec Ideal S64x64 .f32) (b : Vec Ideal S1x64 .f32)
    (wo : Vec Ideal S64x1 .f32) (bo : Vec Ideal S1x1 .f32) (p : Fin 10000),
    Gen.k1_pay1 (F := Ideal) x0 x1 w1 w2 b wo bo (ix2 p 0)
      = Ideal.logistic ((∑ j : Fin 64, max ((∑ k : Fin 64, x1 (ix2 p k) * w1 (ix2 k j)) + (∑ k : Fin 64, x0 (ix2 p k) * w2 (ix2 k j)) + b (ix2 0 j)) 0 * wo (ix2 j 0)) + bo (ix2 0 0))

/-- The zero offsets of a whole-block access, however spelt. -/
theorem zero_off : (![0, 0] : Fin 2 → Nat) = fun _ => 0 := funext fun a => by fin_cases a <;> rfl

/-! ## Rows of a block

Both grids have ten points; at point `s` the row-blocked windows hold rows `10000·s … 10000·s + 9999` of their arrays. -/

/-- Row `p` of the `s`-th block of 10000 rows, as a row of the whole array. -/
def blockRow (s : Nat) (hs : s < 10) (p : Fin 10000) : Fin 100000 := ⟨s * 10000 + p.val, by have := p.isLt; omega⟩

theorem blockRow_val (s : Nat) (hs : s < 10) (p : Fin 10000) : (blockRow s hs p).val = s * 10000 + p.val := rfl

/-- A point of the first grid is below ten. -/
theorem lt0 (t : Fin cfg0.N) : t.val < 10 := lt_of_lt_of_eq t.isLt N_0
/-- A point of the second grid is below ten. -/
theorem lt1 (t : Fin cfg1.N) : t.val < 10 := lt_of_lt_of_eq t.isLt N_1

/-! ## One block of a layer, over plain vectors -/

/-- If the two row-blocked inputs of the body are the rows of block `s` of `h` and `mn`, and the three small inputs are
    `wl`, `wr`, `b`, the body's value at row `p`, column `q` of the block is the layer at row `10000·s + p`, column `q`. -/
theorem layer_block (hp : Pay0) (h mn : Cert.Sage.SN64.Idx → EReal) (wl wr : Cert.Sage.SW.Idx → EReal) (b : Cert.Sage.SRow.Idx → EReal)
    (x0 x1 : Vec Ideal S10000x64 .f32) (w1 w2 : Vec Ideal S64x64 .f32) (bb : Vec Ideal S1x64 .f32)
    (s : Nat) (hs : s < 10)
    (hx0 : ∀ (p : Fin 10000) (k : Fin 64), x0 (ix2 p k) = h (ix2 (blockRow s hs p) k))
    (hx1 : ∀ (p : Fin 10000) (k : Fin 64), x1 (ix2 p k) = mn (ix2 (blockRow s hs p) k))
    (hw1 : ∀ k q : Fin 64, w1 (ix2 k q) = wl (ix2 k q))
    (hw2 : ∀ k q : Fin 64, w2 (ix2 k q) = wr (ix2 k q))
    (hb : ∀ q : Fin 64, bb (ix2 0 q) = b (ix2 0 q))
    (p : Fin 10000) (q : Fin 64) :
    k0_pay1 (F := Ideal) x0 x1 w1 w2 bb (ix2 p q) = Cert.Sage.layerAt h mn wl wr b (blockRow s hs p) q := by
  rw [hp]
  unfold Cert.Sage.layerAt
  simp only [hx0, hx1, hw1, hw2, hb]

/-! ## Region 0: the windows' blocks as rows of their arrays -/

/-- The printed index maps of region 0, decided over its grid: the two row-blocked inputs and the output sit at block
    `(t, 0)`, the three small inputs at block `(0, 0)`. -/
theorem index0 : ∀ t : Fin cfg0.N,
    win0_0.index t (0 : Fin 2) = t.val ∧ win0_0.index t (1 : Fin 2) = 0
  ∧ win0_1.index t (0 : Fin 2) = t.val ∧ win0_1.index t (1 : Fin 2) = 0
  ∧ win0_2.index t (0 : Fin 2) = 0 ∧ win0_2.index t (1 : Fin 2) = 0
  ∧ win0_3.index t (0 : Fin 2) = 0 ∧ win0_3.index t (1 : Fin 2) = 0
  ∧ win0_4.index t (0 : Fin 2) = 0 ∧ win0_4.index t (1 : Fin 2) = 0
  ∧ win0_5.index t (0 : Fin 2) = t.val ∧ win0_5.index t (1 : Fin 2) = 0 :=
  (by decide +kernel : ∀ t : Fin grid0.N, _)

section Region0
variable (V : (c : Dev nD) → (b : Ref sig .tc) → Buf (Elt Ideal) ((c : Thread nD τ).loc b))

/-- Window 0's block at point `t` is rows `10000·t …` of its array. -/
theorem iblk0_0_apply (c : Dev nD) (t : Fin cfg0.N) (p : Fin 10000) (k : Fin 64) :
    (iblk0 V c 0 t : Vec Ideal S10000x64 .f32) (ix2 p k) = (V c main_arg0 : S100000x64.Idx → EReal) (ix2 (blockRow t.val (lt0 t) p) k) := by
  obtain ⟨e0, e1, -⟩ := index0 t
  unfold iblk0
  rw [View.read_apply]
  show V c main_arg0 _ = V c main_arg0 _
  refine congrArg _ ?_
  funext a; apply Fin.ext
  match a with
  | ⟨0, _⟩ => show win0_0.index t (0 : Fin 2) * 10000 + 1 * p.val = t.val * 10000 + p.val; rw [e0]; omega
  | ⟨1, _⟩ => show win0_0.index t (1 : Fin 2) * 64 + 1 * k.val = k.val; rw [e1]; omega

/-- Window 1's block at point `t` is rows `10000·t …` of its array. -/
theorem iblk0_1_apply (c : Dev nD) (t : Fin cfg0.N) (p : Fin 10000) (k : Fin 64) :
    (iblk0 V c 1 t : Vec Ideal S10000x64 .f32) (ix2 p k) = (V c main_v24 : S100000x64.Idx → EReal) (ix2 (blockRow t.val (lt0 t) p) k) := by
  obtain ⟨-, -, e0, e1, -⟩ := index0 t
  unfold iblk0
  rw [View.read_apply]
  show V c main_v24 _ = V c main_v24 _
  refine congrArg _ ?_
  funext a; apply Fin.ext
  match a with
  | ⟨0, _⟩ => show win0_1.index t (0 : Fin 2) * 10000 + 1 * p.val = t.val * 10000 + p.val; rw [e0]; omega
  | ⟨1, _⟩ => show win0_1.index t (1 : Fin 2) * 64 + 1 * k.val = k.val; rw [e1]; omega

/-- Window 2's block at any point is its whole array. -/
theorem iblk0_2_apply (c : Dev nD) (t : Fin cfg0.N) (k q : Fin 64) :
    (iblk0 V c 2 t : Vec Ideal S64x64 .f32) (ix2 k q) = (V c main_v25 : S64x64.Idx → EReal) (ix2 k q) := by
  obtain ⟨-, -, -, -, e0, e1, -⟩ := index0 t
  unfold iblk0
  rw [View.read_apply]
  show V c main_v25 _ = V c main_v25 _
  refine congrArg _ ?_
  funext a; apply Fin.ext
  match a with
  | ⟨0, _⟩ => show win0_2.index t (0 : Fin 2) * 64 + 1 * k.val = k.val; rw [e0]; omega
  | ⟨1, _⟩ => show win0_2.index t (1 : Fin 2) * 64 + 1 * q.val = q.val; rw [e1]; omega

/-- Window 3's block at any point is its whole array. -/
theorem iblk0_3_apply (c : Dev nD) (t : Fin cfg0.N) (k q : Fin 64) :
    (iblk0 V c 3 t : Vec Ideal S64x64 .f32) (ix2 k q) = (V c main_v26 : S64x64.Idx → EReal) (ix2 k q) := by
  obtain ⟨-, -, -, -, -, -, e0, e1, -⟩ := index0 t
  unfold iblk0
  rw [View.read_apply]
  show V c main_v26 _ = V c main_v26 _
  refine congrArg _ ?_
  funext a; apply Fin.ext
  match a with
  | ⟨0, _⟩ => show win0_3.index t (0 : Fin 2) * 64 + 1 * k.val = k.val; rw [e0]; omega
  | ⟨1, _⟩ => show win0_3.index t (1 : Fin 2) * 64 + 1 * q.val = q.val; rw [e1]; omega

/-- Window 4's block at any point is its whole array. -/
theorem iblk0_4_apply (c : Dev nD) (t : Fin cfg0.N) (q : Fin 64) :
    (iblk0 V c 4 t : Vec Ideal S1x64 .f32) (ix2 0 q) = (V c main_v27 : S1x64.Idx → EReal) (ix2 0 q) := by
  obtain ⟨-, -, -, -, -, -, -, -, e0, e1, -⟩ := index0 t
  unfold iblk0
  rw [View.read_apply]
  show V c main_v27 _ = V c main_v27 _
  refine congrArg _ ?_
  funext a; apply Fin.ext
  match a with
  | ⟨0, _⟩ => show win0_4.index t (0 : Fin 2) * 1 + 1 * 0 = 0; rw [e0]
  | ⟨1, _⟩ => show win0_4.index t (1 : Fin 2) * 64 + 1 * q.val = q.val; rw [e1]; omega

/-! ## Region 0: what a point writes back, the cover, the whole array -/

/-- What point `t` writes back to the output window's array is block `t` of the layer of the arrays as the region finds
    them. -/
theorem flushed0_eq (hp : Pay0) (c : Dev nD) (t : Fin cfg0.N) :
    (dat0 (F := Ideal) V c).flushed 5 t = ((cfg0.win 5).blk t).view.read (Elt Ideal)
      (Cert.Sage.layer (V c main_arg0) (V c main_v24) (V c main_v25) (V c main_v26) (V c main_v27)) := by
  show (cfg0.win 5).cut (grid0.coords t) ((dat0 V c).after 5 t) = _
  rw [after0_5]
  unfold out0_5
  rw [View.canon_unit_zero zero_off]
  simp only [View.ld_unit_zero (S := S10000x64) zero_off, View.ld_unit_zero (S := S64x64) zero_off, View.ld_unit_zero (S := S1x64) zero_off]
  funext j
  obtain ⟨p, q, rfl⟩ : ∃ (p : Fin 10000) (q : Fin 64), j = ix2 p q := ⟨j 0, j 1, eq_ix2 j⟩
  rw [View.read_apply]
  have he : ((cfg0.win 5).blk t).view.emb (ix2 p q) = (ix2 (blockRow t.val (lt0 t) p) q : S100000x64.Idx) := by
    obtain ⟨-, -, -, -, -, -, -, -, -, -, e0, e1⟩ := index0 t
    funext a; apply Fin.ext
    match a with
    | ⟨0, _⟩ => show win0_5.index t (0 : Fin 2) * 10000 + 1 * p.val = t.val * 10000 + p.val; rw [e0]; omega
    | ⟨1, _⟩ => show win0_5.index t (1 : Fin 2) * 64 + 1 * q.val = q.val; rw [e1]; omega
  rw [he, Cert.Sage.layer_ix2]
  exact layer_block hp (V c main_arg0) (V c main_v24) (V c main_v25) (V c main_v26) (V c main_v27)
    (iblk0 V c 0 t) (iblk0 V c 1 t) (iblk0 V c 2 t) (iblk0 V c 3 t) (iblk0 V c 4 t) t.val (lt0 t)
    (iblk0_0_apply V c t) (iblk0_1_apply V c t) (iblk0_2_apply V c t) (iblk0_3_apply V c t) (iblk0_4_apply V c t) p q

/-- An index of the output array is in point `t`'s block iff each coordinate is in the block's range on its axis. -/
theorem mem_blk0 (t : Fin cfg0.N) (i : S100000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole main_v28).slice (win0_5.rect t)).set ↔ _
  rw [View.set_slice_whole, Rect.mem_set_unit]
  exact Iff.rfl

/-- Row `r` of the output array lies in the block of point `r / 10000`, which writes back. -/
theorem cover0 (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 10 := N_0
  refine ⟨⟨(i 0).val / 10000, by rw [hN]; omega⟩, flush0_5 _, ?_⟩
  rw [mem_blk0]
  obtain ⟨-, -, -, -, -, -, -, -, -, -, e0, e1⟩ := index0 ⟨(i 0).val / 10000, by rw [hN]; omega⟩
  intro a
  match a with
  | ⟨0, _⟩ =>
    show win0_5.index _ (0 : Fin 2) * 10000 ≤ (i 0).val ∧ (i 0).val < win0_5.index _ (0 : Fin 2) * 10000 + 10000
    rw [e0]; show (i 0).val / 10000 * 10000 ≤ (i 0).val ∧ (i 0).val < (i 0).val / 10000 * 10000 + 10000; omega
  | ⟨1, _⟩ =>
    show win0_5.index _ (1 : Fin 2) * 64 ≤ (i 1).val ∧ (i 1).val < win0_5.index _ (1 : Fin 2) * 64 + 64
    rw [e1]; omega

end Region0

/-- REGION 0's output array after its last point is the layer of the arrays as the region finds them. -/
theorem region0_final (hp : Pay0) (V : (c : Dev nD) → (b : Ref sig .tc) → Buf (Elt Ideal) ((c : Thread nD τ).loc b)) (c : Dev nD) :
    (Gen.dat0 (F := Ideal) V c).arrAt 5 cfg0.N
      = Cert.Sage.layer (V c main_arg0) (V c main_v24) (V c main_v25) (V c main_v26) (V c main_v27) :=
  (dat0 (F := Ideal) V c).arrAt_eq_of_cover 5
    (Cert.Sage.layer (V c main_arg0) (V c main_v24) (V c main_v25) (V c main_v26) (V c main_v27))
    (fun t _ => flushed0_eq V hp c t) cover0

/-! ## One block of the head over a layer, over plain vectors -/

/-- If the two row-blocked inputs of the second body are the rows of block `s` of `h` and `mn`, and the five small inputs
    are `wl`, `wr`, `b`, `wo`, `bo`, the body's value at row `p` of the block is the head, over the layer, at row
    `10000·s + p`: the body's inner clamped sums are the layer's entries of that row. -/
theorem head_block (hp : Pay1) (h mn : Cert.Sage.SN64.Idx → EReal) (wl wr : Cert.Sage.SW.Idx → EReal) (b : Cert.Sage.SRow.Idx → EReal)
    (wo : Cert.Sage.SCol.Idx → EReal) (bo : Cert.Sage.SOne.Idx → EReal)
    (x0 x1 : Vec Ideal S10000x64 .f32) (w1 w2 : Vec Ideal S64x64 .f32) (bb : Vec Ideal S1x64 .f32)
    (wc : Vec Ideal S64x1 .f32) (bc : Vec Ideal S1x1 .f32)
    (s : Nat) (hs : s < 10)
    (hx0 : ∀ (p : Fin 10000) (k : Fin 64), x0 (ix2 p k) = h (ix2 (blockRow s hs p) k))
    (hx1 : ∀ (p : Fin 10000) (k : Fin 64), x1 (ix2 p k) = mn (ix2 (blockRow s hs p) k))
    (hw1 : ∀ k q : Fin 64, w1 (ix2 k q) = wl (ix2 k q))
    (hw2 : ∀ k q : Fin 64, w2 (ix2 k q) = wr (ix2 k q))
    (hb : ∀ q : Fin 64, bb (ix2 0 q) = b (ix2 0 q))
    (hwo : ∀ k : Fin 64, wc (ix2 k 0) = wo (ix2 k 0))
    (hbo : bc (ix2 0 0) = bo (ix2 0 0))
    (p : Fin 10000) :
    k1_pay1 (F := Ideal) x0 x1 w1 w2 bb wc bc (ix2 p 0)
      = Cert.Sage.headAt (Cert.Sage.layer h mn wl wr b) wo bo (blockRow s hs p) := by
  rw [hp]
  unfold Cert.Sage.headAt
  simp only [Cert.Sage.layer_ix2]
  unfold Cert.Sage.layerAt
  simp only [hx0, hx1, hw1, hw2, hb, hwo, hbo]

/-! ## Region 1: the windows' blocks as rows of their arrays -/

/-- The printed index maps of region 1, decided over its grid: the two row-blocked inputs and the output sit at block
    `(t, 0)`, the five small inputs at block `(0, 0)`. -/
theorem index1 : ∀ t : Fin cfg1.N,
    win1_0.index t (0 : Fin 2) = t.val ∧ win1_0.index t (1 : Fin 2) = 0
  ∧ win1_1.index t (0 : Fin 2) = t.val ∧ win1_1.index t (1 : Fin 2) = 0
  ∧ win1_2.index t (0 : Fin 2) = 0 ∧ win1_2.index t (1 : Fin 2) = 0
  ∧ win1_3.index t (0 : Fin 2) = 0 ∧ win1_3.index t (1 : Fin 2) = 0
  ∧ win1_4.index t (0 : Fin 2) = 0 ∧ win1_4.index t (1 : Fin 2) = 0
  ∧ win1_5.index t (0 : Fin 2) = 0 ∧ win1_5.index t (1 : Fin 2) = 0
  ∧ win1_6.index t (0 : Fin 2) = 0 ∧ win1_6.index t (1 : Fin 2) = 0
  ∧ win1_7.index t (0 : Fin 2) = t.val ∧ win1_7.index t (1 : Fin 2) = 0 :=
  (by decide +kernel : ∀ t : Fin grid1.N, _)

section Region1
variable (V : (c : Dev nD) → (b : Ref sig .tc) → Buf (Elt Ideal) ((c : Thread nD τ).loc b))

/-- Window 0's block at point `t` is rows `10000·t …` of its array. -/
theorem iblk1_0_apply (c : Dev nD) (t : Fin cfg1.N) (p : Fin 10000) (k : Fin 64) :
    (iblk1 V c 0 t : Vec Ideal S10000x64 .f32) (ix2 p k) = (V c main_v28 : S100000x64.Idx → EReal) (ix2 (blockRow t.val (lt1 t) p) k) := by
  obtain ⟨e0, e1, -⟩ := index1 t
  unfold iblk1
  rw [View.read_apply]
  show V c main_v28 _ = V c main_v28 _
  refine congrArg _ ?_
  funext a; apply Fin.ext
  match a with
  | ⟨0, _⟩ => show win1_0.index t (0 : Fin 2) * 10000 + 1 * p.val = t.val * 10000 + p.val; rw [e0]; omega
  | ⟨1, _⟩ => show win1_0.index t (1 : Fin 2) * 64 + 1 * k.val = k.val; rw [e1]; omega

/-- Window 1's block at point `t` is rows `10000·t …` of its array. -/
theorem iblk1_1_apply (c : Dev nD) (t : Fin cfg1.N) (p : Fin 10000) (k : Fin 64) :
    (iblk1 V c 1 t : Vec Ideal S10000x64 .f32) (ix2 p k) = (V c main_v40 : S100000x64.Idx → EReal) (ix2 (blockRow t.val (lt1 t) p) k) := by
  obtain ⟨-, -, e0, e1, -⟩ := index1 t
  unfold iblk1
  rw [View.read_apply]
  show V c main_v40 _ = V c main_v40 _
  refine congrArg _ ?_
  funext a; apply Fin.ext
  match a with
  | ⟨0, _⟩ => show win1_1.index t (0 : Fin 2) * 10000 + 1 * p.val = t.val * 10000 + p.val; rw [e0]; omega
  | ⟨1, _⟩ => show win1_1.index t (1 : Fin 2) * 64 + 1 * k.val = k.val; rw [e1]; omega

/-- Window 2's block at any point is its whole array. -/
theorem iblk1_2_apply (c : Dev nD) (t : Fin cfg1.N) (k q : Fin 64) :
    (iblk1 V c 2 t : Vec Ideal S64x64 .f32) (ix2 k q) = (V c main_v41 : S64x64.Idx → EReal) (ix2 k q) := by
  obtain ⟨-, -, -, -, e0, e1, -⟩ := index1 t
  unfold iblk1
  rw [View.read_apply]
  show V c main_v41 _ = V c main_v41 _
  refine congrArg _ ?_
  funext a; apply Fin.ext
  match a with
  | ⟨0, _⟩ => show win1_2.index t (0 : Fin 2) * 64 + 1 * k.val = k.val; rw [e0]; omega
  | ⟨1, _⟩ => show win1_2.index t (1 : Fin 2) * 64 + 1 * q.val = q.val; rw [e1]; omega

/-- Window 3's block at any point is its whole array. -/
theorem iblk1_3_apply (c : Dev nD) (t : Fin cfg1.N) (k q : Fin 64) :
    (iblk1 V c 3 t : Vec Ideal S64x64 .f32) (ix2 k q) = (V c main_v42 : S64x64.Idx → EReal) (ix2 k q) := by
  obtain ⟨-, -, -, -, -, -, e0, e1, -⟩ := index1 t
  unfold iblk1
  rw [View.read_apply]
  show V c main_v42 _ = V c main_v42 _
  refine congrArg _ ?_
  funext a; apply Fin.ext
  match a with
  | ⟨0, _⟩ => show win1_3.index t (0 : Fin 2) * 64 + 1 * k.val = k.val; rw [e0]; omega
  | ⟨1, _⟩ => show win1_3.index t (1 : Fin 2) * 64 + 1 * q.val = q.val; rw [e1]; omega

/-- Window 4's block at any point is its whole array. -/
theorem iblk1_4_apply (c : Dev nD) (t : Fin cfg1.N) (q : Fin 64) :
    (iblk1 V c 4 t : Vec Ideal S1x64 .f32) (ix2 0 q) = (V c main_v43 : S1x64.Idx → EReal) (ix2 0 q) := by
  obtain ⟨-, -, -, -, -, -, -, -, e0, e1, -⟩ := index1 t
  unfold iblk1
  rw [View.read_apply]
  show V c main_v43 _ = V c main_v43 _
  refine congrArg _ ?_
  funext a; apply Fin.ext
  match a with
  | ⟨0, _⟩ => show win1_4.index t (0 : Fin 2) * 1 + 1 * 0 = 0; rw [e0]
  | ⟨1, _⟩ => show win1_4.index t (1 : Fin 2) * 64 + 1 * q.val = q.val; rw [e1]; omega

/-- Window 5's block at any point is its whole array. -/
theorem iblk1_5_apply (c : Dev nD) (t : Fin cfg1.N) (k : Fin 64) :
    (iblk1 V c 5 t : Vec Ideal S64x1 .f32) (ix2 k 0) = (V c main_v44 : S64x1.Idx → EReal) (ix2 k 0) := by
  obtain ⟨-, -, -, -, -, -, -, -, -, -, e0, e1, -⟩ := index1 t
  unfold iblk1
  rw [View.read_apply]
  show V c main_v44 _ = V c main_v44 _
  refine congrArg _ ?_
  funext a; apply Fin.ext
  match a with
  | ⟨0, _⟩ => show win1_5.index t (0 : Fin 2) * 64 + 1 * k.val = k.val; rw [e0]; omega
  | ⟨1, _⟩ => show win1_5.index t (1 : Fin 2) * 1 + 1 * 0 = 0; rw [e1]

/-- Window 6's block at any point is its whole array. -/
theorem iblk1_6_apply (c : Dev nD) (t : Fin cfg1.N) :
    (iblk1 V c 6 t : Vec Ideal S1x1 .f32) (ix2 0 0) = (V c main_v45 : S1x1.Idx → EReal) (ix2 0 0) := by
  obtain ⟨-, -, -, -, -, -, -, -, -, -, -, -, e0, e1, -⟩ := index1 t
  unfold iblk1
  rw [View.read_apply]
  show V c main_v45 _ = V c main_v45 _
  refine congrArg _ ?_
  funext a; apply Fin.ext
  match a with
  | ⟨0, _⟩ => show win1_6.index t (0 : Fin 2) * 1 + 1 * 0 = 0; rw [e0]
  | ⟨1, _⟩ => show win1_6.index t (1 : Fin 2) * 1 + 1 * 0 = 0; rw [e1]

/-! ## Region 1: what a point writes back, the cover, the whole array -/

/-- What point `t` writes back to the output window's array is block `t` of the head, over the layer, of the arrays as the
    region finds them. -/
theorem flushed1_eq (hp : Pay1) (c : Dev nD) (t : Fin cfg1.N) :
    (dat1 (F := Ideal) V c).flushed 7 t = ((cfg1.win 7).blk t).view.read (Elt Ideal)
      (Cert.Sage.head (Cert.Sage.layer (V c main_v28) (V c main_v40) (V c main_v41) (V c main_v42) (V c main_v43)) (V c main_v44) (V c main_v45)) := by
  show (cfg1.win 7).cut (grid1.coords t) ((dat1 V c).after 7 t) = _
  rw [after1_7]
  unfold out1_7
  rw [View.canon_unit_zero zero_off]
  simp only [View.ld_unit_zero (S := S10000x64) zero_off, View.ld_unit_zero (S := S64x64) zero_off, View.ld_unit_zero (S := S1x64) zero_off,
    View.ld_unit_zero (S := S64x1) zero_off, View.ld_unit_zero (S := S1x1) zero_off]
  funext j
  obtain ⟨p, q, rfl⟩ : ∃ (p : Fin 10000) (q : Fin 1), j = ix2 p q := ⟨j 0, j 1, eq_ix2 j⟩
  obtain rfl : q = 0 := Subsingleton.elim _ _
  rw [View.read_apply]
  have he : ((cfg1.win 7).blk t).view.emb (ix2 p 0) = (ix2 (blockRow t.val (lt1 t) p) 0 : S100000x1.Idx) := by
    obtain ⟨-, -, -, -, -, -, -, -, -, -, -, -, -, -, e0, e1⟩ := index1 t
    funext a; apply Fin.ext
    match a with
    | ⟨0, _⟩ => show win1_7.index t (0 : Fin 2) * 10000 + 1 * p.val = t.val * 10000 + p.val; rw [e0]; omega
    | ⟨1, _⟩ => show win1_7.index t (1 : Fin 2) * 1 + 1 * 0 = 0; rw [e1]
  rw [he, Cert.Sage.head_ix2]
  exact head_block hp (V c main_v28) (V c main_v40) (V c main_v41) (V c main_v42) (V c main_v43) (V c main_v44) (V c main_v45)
    (iblk1 V c 0 t) (iblk1 V c 1 t) (iblk1 V c 2 t) (iblk1 V c 3 t) (iblk1 V c 4 t) (iblk1 V c 5 t) (iblk1 V c 6 t) t.val (lt1 t)
    (iblk1_0_apply V c t) (iblk1_1_apply V c t) (iblk1_2_apply V c t) (iblk1_3_apply V c t) (iblk1_4_apply V c t)
    (iblk1_5_apply V c t) (iblk1_6_apply V c t) p

/-- An index of the output array is in point `t`'s block iff each coordinate is in the block's range on its axis. -/
theorem mem_blk1 (t : Fin cfg1.N) (i : S100000x1.Idx) :
    i ∈ ((cfg1.win 7).blk t).view.set ↔ ∀ a : Fin 2, win1_7.index t a * S10000x1.size a ≤ (i a).val ∧ (i a).val < win1_7.index t a * S10000x1.size a + S10000x1.size a := by
  show i ∈ ((View.whole main_v46).slice (win1_7.rect t)).set ↔ _
  rw [View.set_slice_whole, Rect.mem_set_unit]
  exact Iff.rfl

/-- Row `r` of the output array lies in the block of point `r / 10000`, which writes back. -/
theorem cover1 (i : S100000x1.Idx) : ∃ t : Fin cfg1.N, (cfg1.win 7).flush t = true ∧ i ∈ ((cfg1.win 7).blk t).view.set := by
  have hi0 : (i 0).val < 100000 := (i 0).isLt
  have hi1 : (i 1).val < 1 := (i 1).isLt
  have hN : cfg1.N = 10 := N_1
  refine ⟨⟨(i 0).val / 10000, by rw [hN]; omega⟩, flush1_7 _, ?_⟩
  rw [mem_blk1]
  obtain ⟨-, -, -, -, -, -, -, -, -, -, -, -, -, -, e0, e1⟩ := index1 ⟨(i 0).val / 10000, by rw [hN]; omega⟩
  intro a
  match a with
  | ⟨0, _⟩ =>
    show win1_7.index _ (0 : Fin 2) * 10000 ≤ (i 0).val ∧ (i 0).val < win1_7.index _ (0 : Fin 2) * 10000 + 10000
    rw [e0]; show (i 0).val / 10000 * 10000 ≤ (i 0).val ∧ (i 0).val < (i 0).val / 10000 * 10000 + 10000; omega
  | ⟨1, _⟩ =>
    show win1_7.index _ (1 : Fin 2) * 1 ≤ (i 1).val ∧ (i 1).val < win1_7.index _ (1 : Fin 2) * 1 + 1
    rw [e1]; omega

end Region1

/-- REGION 1's output array after its last point is the head, over the layer, of the arrays as the region finds them. -/
theorem region1_final (hp : Pay1) (V : (c : Dev nD) → (b : Ref sig .tc) → Buf (Elt Ideal) ((c : Thread nD τ).loc b)) (c : Dev nD) :
    (Gen.dat1 (F := Ideal) V c).arrAt 7 cfg1.N
      = Cert.Sage.head (Cert.Sage.layer (V c main_v28) (V c main_v40) (V c main_v41) (V c main_v42) (V c main_v43)) (V c main_v44) (V c main_v45) :=
  (dat1 (F := Ideal) V c).arrAt_eq_of_cover 7
    (Cert.Sage.head (Cert.Sage.layer (V c main_v28) (V c main_v40) (V c main_v41) (V c main_v42) (V c main_v43)) (V c main_v44) (V c main_v45))
    (fun t _ => flushed1_eq V hp c t) cover1

end Cert.KernelIdeal.RegionValue

end
-- ==== Proof.KernelValue.lean ====
/-
  The kernel program's result as one function of its arguments.

  The second grid's output array is the head of a layer over the first grid's output and its neighbourhood means;
  the first grid's output array is a layer over the input features and their neighbourhood means. The host
  operations supply the means, the transposed weights and the reshaped biases. Composing the two grids' whole-array
  values with the host stretches read back gives the result as `outK` of the ten arguments.
-/
import proofs.«147963_j56633438765477_1_alg».proof.Proof.HostRead
import proofs.«147963_j56633438765477_1_alg».proof.Proof.RegionValue

set_option maxRecDepth 16384

noncomputable section

namespace Cert.KernelIdeal.KValue

open Cert.KernelIdeal Cert.KernelIdeal.Gen Cert.KernelIdeal.HostValue Cert.KernelIdeal.RegionValue
open Idealize.ShloMosaic Idealize.ShloMosaic.TcCoe Idealize.SL.Sem

/-- The first grid's output as a function of the arguments: one layer over the input features and their
    neighbourhood means. -/
def h1K (x0 : FVec Ideal S100000x64 .f32) (x1 : IVec S2x1000000 32) (x2 : FVec Ideal S64x64 .f32) (x3 : FVec Ideal S64 .f32)
    (x4 : FVec Ideal S64x64 .f32) : Cert.Sage.SN64.Idx → EReal :=
  Cert.Sage.layer x0 (meanK x1 x0) (transpose S64x64 [1, 0] x2 transposes_S64x64_S64x64_1_0)
    (transpose S64x64 [1, 0] x4 transposes_S64x64_S64x64_1_0) (shapeCast _ x3 shapeCasts_S64_S1x64)

/-- The program's result as a function of the arguments: the second layer over the first grid's output and its
    neighbourhood means, then the head. -/
def outK (x0 : FVec Ideal S100000x64 .f32) (x1 : IVec S2x1000000 32) (x2 : FVec Ideal S64x64 .f32) (x3 : FVec Ideal S64 .f32)
    (x4 x5 : FVec Ideal S64x64 .f32) (x6 : FVec Ideal S64 .f32) (x7 : FVec Ideal S64x64 .f32) (x8 : FVec Ideal S1x64 .f32)
    (x9 : FVec Ideal S1 .f32) : Cert.Sage.SN1.Idx → EReal :=
  Cert.Sage.head
    (Cert.Sage.layer (h1K x0 x1 x2 x3 x4) (meanK x1 (h1K x0 x1 x2 x3 x4)) (transpose S64x64 [1, 0] x5 transposes_S64x64_S64x64_1_0)
      (transpose S64x64 [1, 0] x7 transposes_S64x64_S64x64_1_0) (shapeCast _ x6 shapeCasts_S64_S1x64))
    (transpose S64x1 [1, 0] x8 transposes_S1x64_S64x1_1_0) (shapeCast _ x9 shapeCasts_S1_S1x1)

variable (m : (ℓ : Loc nD τ sig) → Buf (Elt Ideal) ℓ) (ρ : Dev nD → PrngReg) (c : Dev nD)

/-- What the first grid leaves in its output array. -/
theorem W2_v28 (hp0 : Pay0) : W2 m ρ c (Proc.devRef .tc main_v28)
    = h1K (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := by
  refine (W2_arr m ρ c 5).trans ?_
  refine (region0_final hp0 (V1 m ρ) c).trans ?_
  unfold h1K
  dsimp only [V1]
  rw [W1_arg0 m ρ c, W1_v24 m ρ c, W1_v25 m ρ c, W1_v26 m ρ c, W1_v27 m ρ c]

/-- What the program leaves in its result array. -/
theorem kernel_value (hp0 : Pay0) (hp1 : Pay1) : W4 m ρ c (Proc.devRef .tc main_v46)
    = outK (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8))
        (m ((c.tc : Thread nD τ).loc main_arg9)) := by
  refine (W4_arr m ρ c 7).trans ?_
  refine (region1_final hp1 (V3 m ρ) c).trans ?_
  unfold outK
  dsimp only [V3]
  rw [W3_v28 m ρ c, W3_v40 m ρ c, W3_v41 m ρ c, W3_v42 m ρ c, W3_v43 m ρ c, W3_v44 m ρ c, W3_v45 m ρ c, W2_v28 m ρ c hp0]

end Cert.KernelIdeal.KValue

end
-- ==== Proof.RefLayer.lean ====
/-
  The reference network's layer, head and neighbourhood mean as whole-array equations over arbitrary arrays, on the
  extended reals. Each is proved one entry at a time: the host's matrix product at an entry is the sum over the
  contracted feature, a broadcast reads one entry of its operand, the elementwise operations act on the entries, and
  what remains is the commutativity of addition (for the layer), the definition of the logistic function (for the
  head) and the equality of a product with a reciprocal and a quotient when the divisor is not zero (for the mean).
-/
import proofs.«147963_j56633438765477_1_alg».proof.Proof.Gen.ReferenceIdeal
import proofs.«147963_j56633438765477_1_alg».proof.Proof.Spec
import Idealize.ShloMosaic.Lib.ValueIdx
import Idealize.ShloMosaic.Lib.IdealHost
import Idealize.ShloMosaic.Lib.Pipeline.Value
import Idealize.ShloMosaic.PureOps.Ideal.Laws

noncomputable section

open scoped BigOperators

namespace Cert.ReferenceIdeal.RefValue

open Cert.ReferenceIdeal Cert.ReferenceIdeal.Facts₀ Idealize.ShloMosaic Idealize.ShloMosaic.ValueIdx

/-! ## The two products at an index -/

/-- The left operand's row coordinate is the output's row. -/
theorem dot64_apply_lhs0 (i : S100000x64.Idx) (q : dot_S100000x64_S64x64_S100000x64_1_0_0_1_n_n.contr.Idx) : (dot_S100000x64_S64x64_S100000x64_1_0_0_1_n_n.lhsIdx i q 0).val = (i 0).val := by
  unfold DotDims.lhsIdx
  rw [dif_neg (show ¬(0 : Fin S100000x64.rank) ∈ dot_S100000x64_S64x64_S100000x64_1_0_0_1_n_n.lhsBatch by decide),
    dif_pos (show (0 : Fin S100000x64.rank) ∈ dot_S100000x64_S64x64_S100000x64_1_0_0_1_n_n.lhsNonContracting by decide)]
  rfl
/-- The left operand's column coordinate is the contracted feature. -/
theorem dot64_apply_lhs1 (i : S100000x64.Idx) (q : dot_S100000x64_S64x64_S100000x64_1_0_0_1_n_n.contr.Idx) : (dot_S100000x64_S64x64_S100000x64_1_0_0_1_n_n.lhsIdx i q 1).val = (q ⟨0, by decide⟩).val :=
  dot_S100000x64_S64x64_S100000x64_1_0_0_1_n_n.lhsIdx_val_of_single rfl i q
/-- The right operand's row coordinate is the contracted feature. -/
theorem dot64_apply_rhs0 (i : S100000x64.Idx) (q : dot_S100000x64_S64x64_S100000x64_1_0_0_1_n_n.contr.Idx) : (dot_S100000x64_S64x64_S100000x64_1_0_0_1_n_n.rhsIdx i q 0).val = (q ⟨0, by decide⟩).val :=
  dot_S100000x64_S64x64_S100000x64_1_0_0_1_n_n.rhsIdx_val_of_single rfl i q
/-- The right operand's column coordinate is the output's column. -/
theorem dot64_apply_rhs1 (i : S100000x64.Idx) (q : dot_S100000x64_S64x64_S100000x64_1_0_0_1_n_n.contr.Idx) : (dot_S100000x64_S64x64_S100000x64_1_0_0_1_n_n.rhsIdx i q 1).val = (i 1).val := by
  unfold DotDims.rhsIdx
  rw [dif_neg (show ¬(1 : Fin S64x64.rank) ∈ dot_S100000x64_S64x64_S100000x64_1_0_0_1_n_n.rhsBatch by decide),
    dif_pos (show (1 : Fin S64x64.rank) ∈ dot_S100000x64_S64x64_S100000x64_1_0_0_1_n_n.rhsNonContracting by decide)]
  rfl

/-- The product of a 100000×64 array with a 64×64 matrix, at row `r` and column `j`, is the sum over the contracted feature `k` of the row's entry times the matrix's entry. -/
theorem dot64_apply (l : FVec Ideal S100000x64 .f32) (w : FVec Ideal S64x64 .f32) (r : Fin 100000) (j : Fin 64) :
    Host.dotGeneral (F := Ideal) dot_S100000x64_S64x64_S100000x64_1_0_0_1_n_n none l w (ix2 r j)
      = ∑ k : Fin 64, l (ix2 r k) * w (ix2 k j) := by
  simp only [Host.dotGeneral]
  rw [Ideal.dotGeneral_apply, ← Equiv.sum_comp (contrEquiv1 dot_S100000x64_S64x64_S100000x64_1_0_0_1_n_n 64 rfl rfl).symm]
  refine Finset.sum_congr rfl fun k _ => ?_
  have hk := contrEquiv1_symm_val dot_S100000x64_S64x64_S100000x64_1_0_0_1_n_n 64 rfl rfl k
  have el : dot_S100000x64_S64x64_S100000x64_1_0_0_1_n_n.lhsIdx (ix2 r j) ((contrEquiv1 dot_S100000x64_S64x64_S100000x64_1_0_0_1_n_n 64 rfl rfl).symm k) = ix2 r k :=
    funext fun a => Fin.ext (by
      match a with
      | ⟨0, _⟩ => exact dot64_apply_lhs0 _ _
      | ⟨1, _⟩ => exact (dot64_apply_lhs1 _ _).trans hk)
  have er : dot_S100000x64_S64x64_S100000x64_1_0_0_1_n_n.rhsIdx (ix2 r j) ((contrEquiv1 dot_S100000x64_S64x64_S100000x64_1_0_0_1_n_n 64 rfl rfl).symm k) = ix2 k j :=
    funext fun a => Fin.ext (by
      match a with
      | ⟨0, _⟩ => exact (dot64_apply_rhs0 _ _).trans hk
      | ⟨1, _⟩ => exact dot64_apply_rhs1 _ _)
  rw [el, er]

/-- The left operand's row coordinate is the output's row. -/
theorem dot1_apply_lhs0 (i : S100000x1.Idx) (q : dot_S100000x64_S64x1_S100000x1_1_0_0_1_n_n.contr.Idx) : (dot_S100000x64_S64x1_S100000x1_1_0_0_1_n_n.lhsIdx i q 0).val = (i 0).val := by
  unfold DotDims.lhsIdx
  rw [dif_neg (show ¬(0 : Fin S100000x64.rank) ∈ dot_S100000x64_S64x1_S100000x1_1_0_0_1_n_n.lhsBatch by decide),
    dif_pos (show (0 : Fin S100000x64.rank) ∈ dot_S100000x64_S64x1_S100000x1_1_0_0_1_n_n.lhsNonContracting by decide)]
  rfl
/-- The left operand's column coordinate is the contracted feature. -/
theorem dot1_apply_lhs1 (i : S100000x1.Idx) (q : dot_S100000x64_S64x1_S100000x1_1_0_0_1_n_n.contr.Idx) : (dot_S100000x64_S64x1_S100000x1_1_0_0_1_n_n.lhsIdx i q 1).val = (q ⟨0, by decide⟩).val :=
  dot_S100000x64_S64x1_S100000x1_1_0_0_1_n_n.lhsIdx_val_of_single rfl i q
/-- The right operand's row coordinate is the contracted feature. -/
theorem dot1_apply_rhs0 (i : S100000x1.Idx) (q : dot_S100000x64_S64x1_S100000x1_1_0_0_1_n_n.contr.Idx) : (dot_S100000x64_S64x1_S100000x1_1_0_0_1_n_n.rhsIdx i q 0).val = (q ⟨0, by decide⟩).val :=
  dot_S100000x64_S64x1_S100000x1_1_0_0_1_n_n.rhsIdx_val_of_single rfl i q
/-- The right operand's column coordinate is the output's column. -/
theorem dot1_apply_rhs1 (i : S100000x1.Idx) (q : dot_S100000x64_S64x1_S100000x1_1_0_0_1_n_n.contr.Idx) : (dot_S100000x64_S64x1_S100000x1_1_0_0_1_n_n.rhsIdx i q 1).val = (i 1).val := by
  unfold DotDims.rhsIdx
  rw [dif_neg (show ¬(1 : Fin S64x1.rank) ∈ dot_S100000x64_S64x1_S100000x1_1_0_0_1_n_n.rhsBatch by decide),
    dif_pos (show (1 : Fin S64x1.rank) ∈ dot_S100000x64_S64x1_S100000x1_1_0_0_1_n_n.rhsNonContracting by decide)]
  rfl

/-- The product of a 100000×64 array with a 64×1 column, at row `r`, is the sum over the contracted feature `k` of the row's entry times the column's entry. -/
theorem dot1_apply (l : FVec Ideal S100000x64 .f32) (w : FVec Ideal S64x1 .f32) (r : Fin 100000) (j : Fin 1) :
    Host.dotGeneral (F := Ideal) dot_S100000x64_S64x1_S100000x1_1_0_0_1_n_n none l w (ix2 r j)
      = ∑ k : Fin 64, l (ix2 r k) * w (ix2 k j) := by
  simp only [Host.dotGeneral]
  rw [Ideal.dotGeneral_apply, ← Equiv.sum_comp (contrEquiv1 dot_S100000x64_S64x1_S100000x1_1_0_0_1_n_n 64 rfl rfl).symm]
  refine Finset.sum_congr rfl fun k _ => ?_
  have hk := contrEquiv1_symm_val dot_S100000x64_S64x1_S100000x1_1_0_0_1_n_n 64 rfl rfl k
  have el : dot_S100000x64_S64x1_S100000x1_1_0_0_1_n_n.lhsIdx (ix2 r j) ((contrEquiv1 dot_S100000x64_S64x1_S100000x1_1_0_0_1_n_n 64 rfl rfl).symm k) = ix2 r k :=
    funext fun a => Fin.ext (by
      match a with
      | ⟨0, _⟩ => exact dot1_apply_lhs0 _ _
      | ⟨1, _⟩ => exact (dot1_apply_lhs1 _ _).trans hk)
  have er : dot_S100000x64_S64x1_S100000x1_1_0_0_1_n_n.rhsIdx (ix2 r j) ((contrEquiv1 dot_S100000x64_S64x1_S100000x1_1_0_0_1_n_n 64 rfl rfl).symm k) = ix2 k j :=
    funext fun a => Fin.ext (by
      match a with
      | ⟨0, _⟩ => exact (dot1_apply_rhs0 _ _).trans hk
      | ⟨1, _⟩ => exact dot1_apply_rhs1 _ _)
  rw [el, er]

/-! ## Broadcasts at an index -/

/-- A 1×64 row broadcast down 100000 rows reads the row's entry in the same column. -/
theorem bcast_row_apply (y : FVec Ideal S1x64 .f32) (r : Fin 100000) (j : Fin 64) :
    broadcastInDim S100000x64 ![0, 1] bcast_S1x64_S100000x64_0_1 y (ix2 r j) = y (ix2 0 j) :=
  broadcastInDim_apply _ bcast_S1x64_S100000x64_0_1 y (ix2 r j) (ix2 0 j) (fun a => match a with
    | ⟨0, _⟩ => by show 0 = if (1 : Nat) = 1 then 0 else r.val; rw [if_pos rfl]
    | ⟨1, _⟩ => by show j.val = if (64 : Nat) = 1 then 0 else j.val; rw [if_neg (by decide)])

/-- A 1×1 entry broadcast down 100000 rows reads that entry. -/
theorem bcast_one_apply (y : FVec Ideal S1x1 .f32) (r : Fin 100000) (c : Fin 1) :
    broadcastInDim S100000x1 ![0, 1] bcast_S1x1_S100000x1_0_1 y (ix2 r c) = y (ix2 0 0) :=
  broadcastInDim_apply _ bcast_S1x1_S100000x1_0_1 y (ix2 r c) (ix2 0 0) (fun a => match a with
    | ⟨0, _⟩ => by show 0 = if (1 : Nat) = 1 then 0 else r.val; rw [if_pos rfl]
    | ⟨1, _⟩ => by show 0 = if (1 : Nat) = 1 then 0 else c.val; rw [if_pos rfl])

/-- A 100000×1 column broadcast across 64 columns reads the column's entry in the same row. -/
theorem bcast_col_apply (y : FVec Ideal S100000x1 .f32) (r : Fin 100000) (j : Fin 64) :
    broadcastInDim S100000x64 ![0, 1] bcast_S100000x1_S100000x64_0_1 y (ix2 r j) = y (ix2 r 0) :=
  broadcastInDim_apply _ bcast_S100000x1_S100000x64_0_1 y (ix2 r j) (ix2 r 0) (fun a => match a with
    | ⟨0, _⟩ => by show r.val = if (100000 : Nat) = 1 then 0 else r.val; rw [if_neg (by decide)]
    | ⟨1, _⟩ => by show 0 = if (1 : Nat) = 1 then 0 else j.val; rw [if_pos rfl])

/-- A vector of 100000 made a 100000×1 column reads the vector's entry in the same row. -/
theorem bcast_vec_apply (y : FVec Ideal S100000 .f32) (r : Fin 100000) (c : Fin 1) :
    broadcastInDim S100000x1 ![0] bcast_S100000_S100000x1_0 y (ix2 r c) = y (ix1 r) :=
  broadcastInDim_apply _ bcast_S100000_S100000x1_0 y (ix2 r c) (ix1 r) (fun a => match a with
    | ⟨0, _⟩ => by show r.val = if (100000 : Nat) = 1 then 0 else r.val; rw [if_neg (by decide)])

/-- The scalar zero broadcast to any shape reads the extended real zero. -/
theorem zeros_apply {T : Shape} (h : S_.BroadcastsInDim T ![]) (i : T.Idx) :
    broadcastInDim T ![] h (constant (F := Ideal) S_ .f32 0x00000000#32) i = (0 : EReal) := by
  rw [broadcastInDim_scalar_apply, constant_apply, Ideal.ofBits_zero_f32]

/-- The scalar one broadcast to any shape reads the extended real one. -/
theorem ones_apply {T : Shape} (h : S_.BroadcastsInDim T ![]) (i : T.Idx) :
    broadcastInDim T ![] h (constant (F := Ideal) S_ .f32 0x3F800000#32) i = (1 : EReal) := by
  rw [broadcastInDim_scalar_apply, constant_apply, Ideal.ofBits_one_f32]

/-! ## The reference's layer, head and mean as whole arrays -/

/-- The reference's layer — the product of the means with the first matrix, plus the broadcast bias, plus the product of
    the features with the second matrix, clamped below at zero — is the layer function: at each entry the two sums and
    the bias are added in another order. -/
theorem layer_ref (h mn : FVec Ideal S100000x64 .f32) (wl wr : FVec Ideal S64x64 .f32) (b : FVec Ideal S64 .f32) :
    maximumf (addf (addf (Host.dotGeneral (F := Ideal) dot_S100000x64_S64x64_S100000x64_1_0_0_1_n_n none mn wl)
                (broadcastInDim S100000x64 ![0, 1] bcast_S1x64_S100000x64_0_1 (broadcastInDim S1x64 ![1] bcast_S64_S1x64_1 b)))
          (Host.dotGeneral (F := Ideal) dot_S100000x64_S64x64_S100000x64_1_0_0_1_n_n none h wr))
      (broadcastInDim S100000x64 ![] bcast_S_S100000x64 (constant (F := Ideal) S_ .f32 0x00000000#32))
    = Cert.Sage.layer h mn wl wr (broadcastInDim S1x64 ![1] bcast_S64_S1x64_1 b) := by
  funext i
  obtain ⟨r, j, rfl⟩ : ∃ (r : Fin 100000) (j : Fin 64), i = ix2 r j := ⟨i 0, i 1, eq_ix2 i⟩
  rw [Cert.Sage.layer_ix2, Cert.Sage.layerAt, maximumf_apply, addf_apply, addf_apply, dot64_apply, dot64_apply,
    bcast_row_apply, zeros_apply, add_right_comm]

/-- The reference's head — one over one plus the exponential of minus (the product with the column plus the broadcast
    bias) — is the head function: the logistic function is that expression. -/
theorem head_ref (h2 : FVec Ideal S100000x64 .f32) (wo : FVec Ideal S64x1 .f32) (bo : FVec Ideal S1 .f32) :
    Host.divf (F := Ideal) (broadcastInDim S100000x1 ![] bcast_S_S100000x1 (constant (F := Ideal) S_ .f32 0x3F800000#32))
      (addf (broadcastInDim S100000x1 ![] bcast_S_S100000x1 (constant (F := Ideal) S_ .f32 0x3F800000#32))
        (Host.exp (Host.negf (addf (Host.dotGeneral (F := Ideal) dot_S100000x64_S64x1_S100000x1_1_0_0_1_n_n none h2 wo)
          (broadcastInDim S100000x1 ![0, 1] bcast_S1x1_S100000x1_0_1 (broadcastInDim S1x1 ![1] bcast_S1_S1x1_1 bo))))))
    = Cert.Sage.head h2 wo (broadcastInDim S1x1 ![1] bcast_S1_S1x1_1 bo) := by
  funext i
  obtain ⟨r, c, rfl⟩ : ∃ (r : Fin 100000) (c : Fin 1), i = ix2 r c := ⟨i 0, i 1, eq_ix2 i⟩
  obtain rfl : c = 0 := Subsingleton.elim _ _
  rw [Cert.Sage.head_ix2, Cert.Sage.headAt, hostDivf_apply, addf_apply, ones_apply]
  show Ideal.div 1 (1 + Ideal.exp (-(addf (Host.dotGeneral (F := Ideal) dot_S100000x64_S64x1_S100000x1_1_0_0_1_n_n none h2 wo)
    (broadcastInDim S100000x1 ![0, 1] bcast_S1x1_S100000x1_0_1 (broadcastInDim S1x1 ![1] bcast_S1_S1x1_1 bo)) (ix2 r 0)))) = _
  rw [addf_apply, dot1_apply, bcast_one_apply, Ideal.logistic]

/-- The kernel's mean (the sum times the broadcast reciprocal of the clamped count) is the reference's (the sum divided
    by the broadcast clamped count): at each entry a product with the reciprocal of a divisor that is not zero is the
    quotient, and a count clamped below at one is not zero. -/
theorem mean_eq (A : FVec Ideal S100000x64 .f32) (cnt : FVec Ideal S100000 .f32) :
    mulf A (broadcastInDim S100000x64 ![0, 1] bcast_S100000x1_S100000x64_0_1 (broadcastInDim S100000x1 ![0] bcast_S100000_S100000x1_0
        (Host.divf (F := Ideal) (broadcastInDim S100000 ![] bcast_S_S100000 (constant (F := Ideal) S_ .f32 0x3F800000#32))
          (maximumf cnt (broadcastInDim S100000 ![] bcast_S_S100000 (constant (F := Ideal) S_ .f32 0x3F800000#32))))))
    = Host.divf (F := Ideal) A (broadcastInDim S100000x64 ![0, 1] bcast_S100000x1_S100000x64_0_1 (broadcastInDim S100000x1 ![0] bcast_S100000_S100000x1_0
          (maximumf cnt (broadcastInDim S100000 ![] bcast_S_S100000 (constant (F := Ideal) S_ .f32 0x3F800000#32))))) := by
  funext i
  obtain ⟨r, j, rfl⟩ : ∃ (r : Fin 100000) (j : Fin 64), i = ix2 r j := ⟨i 0, i 1, eq_ix2 i⟩
  rw [mulf_apply, hostDivf_apply, bcast_col_apply, bcast_col_apply, bcast_vec_apply, bcast_vec_apply, hostDivf_apply,
    maximumf_apply, ones_apply]
  exact Cert.Sage.mul_recip_eq_div _ _ (Cert.Sage.max_one_ne_zero _)

/-! ## A reshaped bias is the broadcast bias -/

/-- A vector of 64 reshaped to a 1×64 row is the vector broadcast to a row: both read the vector's entry in the same
    column. -/
theorem row_cast_eq (b : FVec Ideal S64 .f32) (hc : S64.ShapeCasts S1x64) :
    shapeCast S1x64 b hc = broadcastInDim S1x64 ![1] bcast_S64_S1x64_1 b := by
  funext i
  obtain ⟨c, j, rfl⟩ : ∃ (c : Fin 1) (j : Fin 64), i = ix2 c j := ⟨i 0, i 1, eq_ix2 i⟩
  obtain rfl : c = 0 := Subsingleton.elim _ _
  refine (shapeCast_apply b hc (ix2 0 j) (ix1 j) ?_).trans
    (broadcastInDim_apply _ bcast_S64_S1x64_1 b (ix2 0 j) (ix1 j) (fun a => match a with
      | ⟨0, _⟩ => by show j.val = if (64 : Nat) = 1 then 0 else j.val; rw [if_neg (by decide)])).symm
  rw [Shape.rowMajor_val_one, Shape.rowMajor_val_two]
  show j.val = 0 * 64 + j.val
  omega

/-- One entry reshaped to a 1×1 matrix is the entry broadcast to a 1×1 matrix. -/
theorem one_cast_eq (b : FVec Ideal S1 .f32) (hc : S1.ShapeCasts S1x1) :
    shapeCast S1x1 b hc = broadcastInDim S1x1 ![1] bcast_S1_S1x1_1 b := by
  funext i
  obtain ⟨c, j, rfl⟩ : ∃ (c : Fin 1) (j : Fin 1), i = ix2 c j := ⟨i 0, i 1, eq_ix2 i⟩
  obtain rfl : c = 0 := Subsingleton.elim _ _
  obtain rfl : j = 0 := Subsingleton.elim _ _
  refine (shapeCast_apply b hc (ix2 0 0) (ix1 0) ?_).trans
    (broadcastInDim_apply _ bcast_S1_S1x1_1 b (ix2 0 0) (ix1 0) (fun a => match a with
      | ⟨0, _⟩ => by show 0 = if (1 : Nat) = 1 then 0 else 0; rw [if_pos rfl])).symm
  rw [Shape.rowMajor_val_one, Shape.rowMajor_val_two]
  rfl

end Cert.ReferenceIdeal.RefValue

end
-- ==== Proof.RefValue.lean ====
/-
  The reference program's result as the network's output. The reference's host operations on the edge list — the
  source and destination rows, the neighbourhood sum by gather and scatter-add, the neighbour count, the mean as the
  sum divided by the clamped count — are given names; the reference's composed term is then the head function of the
  second layer of the first layer over these named terms, by the whole-array equations for the layer and the head.
-/
import proofs.«147963_j56633438765477_1_alg».proof.Proof.RefLayer
import proofs.«147963_j56633438765477_1_alg».proof.Proof.Gen.ReferenceIdeal.Run

noncomputable section

open scoped BigOperators

namespace Cert.ReferenceIdeal.RefValue

open Cert.ReferenceIdeal Cert.ReferenceIdeal.Facts₀ Idealize.ShloMosaic Idealize.ShloMosaic.ValueIdx
  Idealize.ShloMosaic.TcCoe Idealize.SL.Sem Idealize.ShloMosaic.StableHlo

/-! ## The reference's host terms, named -/

/-- The edges' source nodes: the edge list's first row as a vector. -/
def src (x1 : IVec S2x1000000 32) : IVec S1000000 32 :=
  shapeCast _ (extractStridedSlice S1x1000000 ![0, 0] x1 slices_S2x1000000_S1x1000000_0_0) shapeCasts_S1x1000000_S1000000

/-- The edges' destination nodes: the edge list's second row as a vector. -/
def dst (x1 : IVec S2x1000000 32) : IVec S1000000 32 :=
  shapeCast _ (extractStridedSlice S1x1000000 ![1, 0] x1 slices_S2x1000000_S1x1000000_1_0) shapeCasts_S1x1000000_S1000000

/-- The source nodes as gather indices: a negative node number counts from the end, and each is a one-entry index vector. -/
def srcIdx (x1 : IVec S2x1000000 32) : IVec S1000000x1 32 :=
  broadcastInDim S1000000x1 ![0] bcast_S1000000_S1000000x1_0
    (select (cmpi .slt (src x1) (broadcastInDim S1000000 ![] bcast_S_S1000000 (constantI S_ 32 0#32)))
      (addi (src x1) (broadcastInDim S1000000 ![] bcast_S_S1000000 (constantI S_ 32 100000#32))) (src x1))

/-- The destination nodes as scatter indices: each a one-entry index vector. -/
def dstIdx (x1 : IVec S2x1000000 32) : IVec S1000000x1 32 :=
  broadcastInDim S1000000x1 ![0] bcast_S1000000_S1000000x1_0 (dst x1)

/-- The neighbourhood sum: each edge adds its source node's row of `h` to its destination node's row of a zero array. -/
def agg (x1 : IVec S2x1000000 32) (h : FVec Ideal S100000x64 .f32) : FVec Ideal S100000x64 .f32 :=
  Host.scatterAdd (F := Ideal) scatter_S100000x64_S1000000x1_S1000000x64_1_0_0_1
    (broadcastInDim S100000x64 ![] bcast_S_S100000x64 (constant (F := Ideal) S_ .f32 0x00000000#32)) (dstIdx x1)
    (Host.gather gather_S100000x64_S1000000x1_S1000000x64_1_0_n_n_0_1_164 h (srcIdx x1))

/-- The neighbour count: each edge adds one to its destination node's entry of a zero vector. -/
def cnt (x1 : IVec S2x1000000 32) : FVec Ideal S100000 .f32 :=
  Host.scatterAdd (F := Ideal) scatter_S100000_S1000000x1_S1000000_n_0_0_1
    (broadcastInDim S100000 ![] bcast_S_S100000 (constant (F := Ideal) S_ .f32 0x00000000#32)) (dstIdx x1)
    (broadcastInDim S1000000 ![] bcast_S_S1000000 (constant (F := Ideal) S_ .f32 0x3F800000#32))

/-- The neighbourhood mean: the sum divided by the count clamped below at one, broadcast across the features. -/
def meanDiv (x1 : IVec S2x1000000 32) (h : FVec Ideal S100000x64 .f32) : FVec Ideal S100000x64 .f32 :=
  Host.divf (F := Ideal) (agg x1 h)
    (broadcastInDim S100000x64 ![0, 1] bcast_S100000x1_S100000x64_0_1 (broadcastInDim S100000x1 ![0] bcast_S100000_S100000x1_0
      (maximumf (cnt x1) (broadcastInDim S100000 ![] bcast_S_S100000 (constant (F := Ideal) S_ .f32 0x3F800000#32)))))

/-- The first layer's features: the layer function of the input features and their neighbourhood means, with the first
    layer's two matrices transposed and its bias as a row. -/
def refH1 (x0 : FVec Ideal S100000x64 .f32) (x1 : IVec S2x1000000 32) (x2 : FVec Ideal S64x64 .f32) (x3 : FVec Ideal S64 .f32)
    (x4 : FVec Ideal S64x64 .f32) : Cert.Sage.SN64.Idx → EReal :=
  Cert.Sage.layer x0 (meanDiv x1 x0) (transpose S64x64 [1, 0] x2 transposes_S64x64_S64x64_1_0)
    (transpose S64x64 [1, 0] x4 transposes_S64x64_S64x64_1_0) (broadcastInDim S1x64 ![1] bcast_S64_S1x64_1 x3)

/-- The network's output: the head function of the second layer's features, which are the layer function of the first
    layer's features and their neighbourhood means. -/
def refOut (x0 : FVec Ideal S100000x64 .f32) (x1 : IVec S2x1000000 32) (x2 : FVec Ideal S64x64 .f32) (x3 : FVec Ideal S64 .f32)
    (x4 x5 : FVec Ideal S64x64 .f32) (x6 : FVec Ideal S64 .f32) (x7 : FVec Ideal S64x64 .f32) (x8 : FVec Ideal S1x64 .f32)
    (x9 : FVec Ideal S1 .f32) : Cert.Sage.SN1.Idx → EReal :=
  Cert.Sage.head
    (Cert.Sage.layer (refH1 x0 x1 x2 x3 x4) (meanDiv x1 (refH1 x0 x1 x2 x3 x4)) (transpose S64x64 [1, 0] x5 transposes_S64x64_S64x64_1_0)
      (transpose S64x64 [1, 0] x7 transposes_S64x64_S64x64_1_0) (broadcastInDim S1x64 ![1] bcast_S64_S1x64_1 x6))
    (transpose S64x1 [1, 0] x8 transposes_S1x64_S64x1_1_0) (broadcastInDim S1x1 ![1] bcast_S1_S1x1_1 x9)

/-! ## The reference's result is the network's output -/

set_option maxRecDepth 16384 in
/-- The reference's composed term of its arguments is the head of the second layer of the first layer: each layer's
    operations are rewritten to the layer function and the last operations to the head function; the host terms under
    them are the named ones. -/
theorem ref_value (m : (ℓ : Loc nD τ sig) → Buf (Elt Ideal) ℓ) (c : Dev nD) :
    Cert.ReferenceIdeal.Value.res_main_v70 (F := Ideal) m c
      = refOut (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9)) := by
  unfold Cert.ReferenceIdeal.Value.res_main_v70
  generalize m ((c.tc : Thread nD τ).loc main_arg0) = x0
  generalize m ((c.tc : Thread nD τ).loc main_arg1) = x1
  generalize m ((c.tc : Thread nD τ).loc main_arg2) = x2
  generalize m ((c.tc : Thread nD τ).loc main_arg3) = x3
  generalize m ((c.tc : Thread nD τ).loc main_arg4) = x4
  generalize m ((c.tc : Thread nD τ).loc main_arg5) = x5
  generalize m ((c.tc : Thread nD τ).loc main_arg6) = x6
  generalize m ((c.tc : Thread nD τ).loc main_arg7) = x7
  generalize m ((c.tc : Thread nD τ).loc main_arg8) = x8
  generalize m ((c.tc : Thread nD τ).loc main_arg9) = x9
  -- the first layer (all its occurrences), then the second layer around it, then the head
  rw [layer_ref, layer_ref, head_ref]
  rfl

end Cert.ReferenceIdeal.RefValue

end
-- ==== Proof.Bridge.lean ====
/-
  The two programs compute one function.

  Both take the neighbourhood sum and the edge count by the same host operations on the same arguments. The kernel
  multiplies the sum by the reciprocal of the count clamped below at one; the reference divides by the clamped
  count: on the extended reals both are the product with the inverse of a divisor that is at least one, hence not
  zero. The kernel reshapes a bias vector to a row where the reference broadcasts it: the same row. Everything
  else — the transposed weights, the layer and the head — is the same term on both sides.
-/
import proofs.«147963_j56633438765477_1_alg».proof.Proof.KernelValue
import proofs.«147963_j56633438765477_1_alg».proof.Proof.RefValue

set_option maxRecDepth 16384

noncomputable section

namespace Cert.Proof.Bridge

open Idealize.ShloMosaic Idealize.ShloMosaic.TcCoe Idealize.SL.Sem
open Cert.KernelIdeal.HostValue Cert.KernelIdeal.KValue Cert.ReferenceIdeal.RefValue

/-- The kernel's neighbourhood mean (the sum times the reciprocal of the clamped count) is the reference's (the sum
    divided by the clamped count): the two programs' host terms for the sum and the count are the same terms. -/
theorem meanK_eq (x1 : IVec Cert.KernelIdeal.S2x1000000 32) (h : FVec Ideal Cert.KernelIdeal.S100000x64 .f32) :
    meanK x1 h = meanDiv x1 h :=
  mean_eq (agg x1 h) (cnt x1)

/-- The kernel's result and the reference's are one function of the arguments. -/
theorem outK_eq_refOut (x0 : FVec Ideal Cert.KernelIdeal.S100000x64 .f32) (x1 : IVec Cert.KernelIdeal.S2x1000000 32)
    (x2 : FVec Ideal Cert.KernelIdeal.S64x64 .f32) (x3 : FVec Ideal Cert.KernelIdeal.S64 .f32)
    (x4 x5 : FVec Ideal Cert.KernelIdeal.S64x64 .f32) (x6 : FVec Ideal Cert.KernelIdeal.S64 .f32)
    (x7 : FVec Ideal Cert.KernelIdeal.S64x64 .f32) (x8 : FVec Ideal Cert.KernelIdeal.S1x64 .f32)
    (x9 : FVec Ideal Cert.KernelIdeal.S1 .f32) :
    outK x0 x1 x2 x3 x4 x5 x6 x7 x8 x9 = refOut x0 x1 x2 x3 x4 x5 x6 x7 x8 x9 := by
  unfold outK h1K refOut refH1
  rw [meanK_eq, meanK_eq]
  rw [show shapeCast Cert.KernelIdeal.S1x64 x3 Cert.KernelIdeal.Gen.shapeCasts_S64_S1x64 = _ from row_cast_eq x3 Cert.KernelIdeal.Gen.shapeCasts_S64_S1x64,
    show shapeCast Cert.KernelIdeal.S1x64 x6 Cert.KernelIdeal.Gen.shapeCasts_S64_S1x64 = _ from row_cast_eq x6 Cert.KernelIdeal.Gen.shapeCasts_S64_S1x64,
    show shapeCast Cert.KernelIdeal.S1x1 x9 Cert.KernelIdeal.Gen.shapeCasts_S1_S1x1 = _ from one_cast_eq x9 Cert.KernelIdeal.Gen.shapeCasts_S1_S1x1]

end Cert.Proof.Bridge

end
-- ==== Proof.lean ====
/-
  The certificate of a two-layer neighbourhood-mean network with a logistic head, computed on 100000 nodes and a
  million edges: a kernel program (host gather and scatter-add for the neighbourhood sums, two grids of ten row
  blocks for the dense part) against a plain reference.

  The three frames: the word-level kernel's and the idealized kernel's are the generated frame proofs; the
  reference has no kernel, and its frame is its generated run with the result dropped. The idealization rewrote
  nothing, so there is nothing to preserve.

  The value claim, on the extended reals. Both programs take, by the same host operations on the same arguments,
  the sum of the source rows at each destination and the number of edges arriving there. The kernel's mean is
  the sum times the reciprocal of max(count, 1), the reference's the sum divided by max(count, 1): both are the
  product with the inverse of a divisor that is not zero, at every extended real (no finiteness is used). A layer is
      max (Σ_k mean(r,k)·wl(k,j) + Σ_k h(r,k)·wr(k,j) + b(j)) 0,
  the kernel adding the two products first and the bias last, the reference the bias in between (addition on the
  extended reals is commutative and associative); a product into a zero accumulator and a host product are the
  same sum; rounding to a narrower format is the identity. The head is the logistic function of Σ_k h2(r,k)·wo(k) + bo,
  which the reference spells 1 / (1 + exp(−z)): the same function. The kernel computes a layer ten row blocks at a
  time, and block t of a layer's result depends on rows 10000·t … 10000·t + 9999 of its inputs only, so the blocks
  written back are the whole-array layer.
-/
import proofs.«147963_j56633438765477_1_alg».proof.Defs
import proofs.«147963_j56633438765477_1_alg».proof.Proof.Gen.Kernel
import proofs.«147963_j56633438765477_1_alg».proof.Proof.Gen.Kernel.Frame
import proofs.«147963_j56633438765477_1_alg».proof.Proof.Gen.KernelIdeal
import proofs.«147963_j56633438765477_1_alg».proof.Proof.Gen.KernelIdeal.Frame
import proofs.«147963_j56633438765477_1_alg».proof.Proof.Gen.ReferenceIdeal
import proofs.«147963_j56633438765477_1_alg».proof.Proof.Gen.ReferenceIdeal.Run
import proofs.«147963_j56633438765477_1_alg».proof.Proof.Gen.Pre_finite_inputs
import proofs.«147963_j56633438765477_1_alg».proof.Proof.KernelRun
import proofs.«147963_j56633438765477_1_alg».proof.Proof.Payload
import proofs.«147963_j56633438765477_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs and leaves its arguments as launched. -/
theorem frame_k : Cert.frame_Kernel := fun m ρ _ => Cert.Kernel.Gen.frame m ρ
/-- The idealized kernel runs and leaves its arguments as launched. -/
theorem frame_ki : Cert.frame_KernelIdeal := fun m ρ _ => Cert.KernelIdeal.Gen.frame m ρ
/-- The reference runs and leaves its arguments as launched: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the same result array: the kernel's is
    `outK` of the arguments, the reference's `refOut` of them, and the two are one function. -/
theorem algebraic : Cert.algebraic_KernelIdeal_ReferenceIdeal := by
  intro m ρ m' ρ' _ hagree
  refine ⟨fun c => Cert.KernelIdeal.Gen.W4 m ρ c (Proc.devRef .tc Cert.KernelIdeal.main_v46), Cert.KernelIdeal.RunValue.run_named (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [Cert.ReferenceIdeal.RefValue.ref_value m' c, h0, h1, h2, h3, h4, h5, h6, h7, h8, h9]
  refine Eq.trans ?_ (Cert.KernelIdeal.KValue.kernel_value m ρ c
    (fun x0 x1 w1 w2 b p q => Cert.KernelIdeal.PayValue.pay0_apply x0 x1 w1 w2 b p q)
    (fun x0 x1 w1 w2 b wo bo p => Cert.KernelIdeal.PayValue.pay1_apply x0 x1 w1 w2 b wo bo p)).symm
  exact (Cert.Proof.Bridge.outK_eq_refOut _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
